-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v64)) (v1 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v64) = v0 c
          ∧ r.2.mem ((c.tc : Thread Cert.KernelIdeal.nD Cert.KernelIdeal.τ).loc Cert.KernelIdeal.main_v65) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_v66) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S200000x64 : Shape := ⟨2, ![200000, 64]⟩
abbrev S100000x64 : Shape := ⟨2, ![100000, 64]⟩
abbrev S4000000 : Shape := ⟨1, ![4000000]⟩
abbrev S_ : Shape := ⟨0, ![]⟩

class Facts : Prop where
  bcast_S_S200000x64 : S_.BroadcastsInDim S200000x64 (![] : Fin 0 → Fin S200000x64.rank)
  reducesTo_S200000x64_S_d0_1 : S200000x64.ReducesTo [0, 1] S_
  h_S_ : 0 < S_.numel
  bcast_S_S100000x64 : S_.BroadcastsInDim S100000x64 (![] : Fin 0 → Fin S100000x64.rank)
  reducesTo_S100000x64_S_d0_1 : S100000x64.ReducesTo [0, 1] S_

variable [Facts]

def fn {F : FTy → Type} [FloatOps F] (main_arg0 : FVec F S200000x64 .f32) (main_arg1 : FVec F S100000x64 .f32) (main_arg2 : IVec S4000000 32) (main_arg3 : IVec S4000000 32) : IVec S_ 1 :=
  let main_v0 : FVec F S200000x64 .f32 := Host.absf main_arg0
  let main_cst : FVec F S_ .f32 := constant S_ .f32 0x7F800000#32
  let main_v1 : FVec F S200000x64 .f32 := broadcastInDim S200000x64 ![] bcast_S_S200000x64 main_cst
  let main_v2 : IVec S200000x64 1 := cmpf .olt main_v0 main_v1
  let main_c : IVec S_ 1 := constantI S_ 1 1#1
  let main_v3 : IVec S_ 1 := (fun x v => Host.reduce IntOp.andi x v reducesTo_S200000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  main_v8
-- ==== Kernel.lean ====
abbrev S200000x64 : Shape := ⟨2, ![200000, 64]⟩
abbrev S100000x64 : Shape := ⟨2, ![100000, 64]⟩
abbrev S4000000 : Shape := ⟨1, ![4000000]⟩
abbrev S300000x64 : Shape := ⟨2, ![300000, 64]⟩
abbrev S_ : Shape := ⟨0, ![]⟩
abbrev S300000 : Shape := ⟨1, ![300000]⟩
abbrev S4000000x1 : Shape := ⟨2, ![4000000, 1]⟩
abbrev S4001792 : Shape := ⟨1, ![4001792]⟩
abbrev S4001792x1 : Shape := ⟨2, ![4001792, 1]⟩
abbrev S4001792x64 : Shape := ⟨2, ![4001792, 64]⟩
abbrev S4096x64 : Shape := ⟨2, ![4096, 64]⟩
abbrev S4096x1 : Shape := ⟨2, ![4096, 1]⟩
abbrev S5000x64 : Shape := ⟨2, ![5000, 64]⟩

abbrev nBuf : Space → Nat
  | .hbm => 92
  | .vmem => 40
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S4000000, .i32⟩
  | .hbm, ⟨3, _⟩ => ⟨S4000000, .i32⟩
  | .hbm, ⟨4, _⟩ => ⟨S300000x64, .f32⟩
  | .hbm, ⟨5, _⟩ => ⟨S_, .f32⟩
  | .hbm, ⟨6, _⟩ => ⟨S4000000, .f32⟩
  | .hbm, ⟨7, _⟩ => ⟨S_, .f32⟩
  | .hbm, ⟨8, _⟩ => ⟨S300000, .f32⟩
  | .hbm, ⟨9, _⟩ => ⟨S4000000x1, .i32⟩
  | .hbm, ⟨10, _⟩ => ⟨S300000, .f32⟩
  | .hbm, ⟨11, _⟩ => ⟨S_, .f32⟩
  | .hbm, ⟨12, _⟩ => ⟨S300000, .f32⟩
  | .hbm, ⟨13, _⟩ => ⟨S300000, .f32⟩
  | .hbm, ⟨14, _⟩ => ⟨S300000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S4000000, .f32⟩
  | .hbm, ⟨34, _⟩ => ⟨S4000000x1, .f32⟩
  | .hbm, ⟨35, _⟩ => ⟨S_, .i32⟩
  | .hbm, ⟨36, _⟩ => ⟨S_, .i32⟩
  | .hbm, ⟨37, _⟩ => ⟨S4001792, .i32⟩
  | .hbm, ⟨38, _⟩ => ⟨S_, .i32⟩
  | .hbm, ⟨39, _⟩ => ⟨S_, .i32⟩
  | .hbm, ⟨40, _⟩ => ⟨S4001792, .i32⟩
  | .hbm, ⟨41, _⟩ => ⟨S_, .f32⟩
  | .hbm, ⟨42, _⟩ => ⟨S_, .f32⟩
  | .hbm, ⟨43, _⟩ => ⟨S4001792x1, .f32⟩
  | .hbm, ⟨44, _⟩ => ⟨S_, .i32⟩
  | .hbm, ⟨45, _⟩ => ⟨S4001792, .i32⟩
  | .hbm, ⟨46, _⟩ => ⟨S4001792, .i1⟩
  | .hbm, ⟨47, _⟩ => ⟨S_, .i32⟩
  | .hbm, ⟨48, _⟩ => ⟨S4001792, .i32⟩
  | .hbm, ⟨49, _⟩ => ⟨S4001792, .i32⟩
  | .hbm, ⟨50, _⟩ => ⟨S4001792, .i32⟩
  | .hbm, ⟨51, _⟩ => ⟨S4001792x1, .i32⟩
  | .hbm, ⟨52, _⟩ => ⟨S4001792x64, .f32⟩
  | .hbm, ⟨53, _⟩ => ⟨S4001792x64, .f32⟩
  | .hbm, ⟨54, _⟩ => ⟨S_, .f32⟩
  | .hbm, ⟨55, _⟩ => ⟨S300000x64, .f32⟩
  | .hbm, ⟨56, _⟩ => ⟨S4001792x1, .i32⟩
  | .hbm, ⟨57, _⟩ => ⟨S300000x64, .f32⟩
  | .hbm, ⟨58, _⟩ => ⟨S300000x64, .f32⟩
  | .hbm, ⟨59, _⟩ => ⟨S_, .i32⟩
  | .hbm, ⟨60, _⟩ => ⟨S4001792, .i32⟩
  | .hbm, ⟨61, _⟩ => ⟨S4001792, .i1⟩
  | .hbm, ⟨62, _⟩ => ⟨S_, .i32⟩
  | .hbm, ⟨63, _⟩ => ⟨S4001792, .i32⟩
  | .hbm, ⟨64, _⟩ => ⟨S4001792, .i32⟩
  | .hbm, ⟨65, _⟩ => ⟨S4001792, .i32⟩
  | .hbm, ⟨66, _⟩ => ⟨S4001792x1, .i32⟩
  | .hbm, ⟨67, _⟩ => ⟨S4001792x64, .f32⟩
  | .hbm, ⟨68, _⟩ => ⟨S4001792x64, .f32⟩
  | .hbm, ⟨69, _⟩ => ⟨S_, .f32⟩
  | .hbm, ⟨70, _⟩ => ⟨S300000x64, .f32⟩
  | .hbm, ⟨71, _⟩ => ⟨S4001792x1, .i32⟩
  | .hbm, ⟨72, _⟩ => ⟨S300000x64, .f32⟩
  | .hbm, ⟨73, _⟩ => ⟨S300000x64, .f32⟩
  | .hbm, ⟨74, _⟩ => ⟨S_, .i32⟩
  | .hbm, ⟨75, _⟩ => ⟨S4001792, .i32⟩
  | .hbm, ⟨76, _⟩ => ⟨S4001792, .i1⟩
  | .hbm, ⟨77, _⟩ => ⟨S_, .i32⟩
  | .hbm, ⟨78, _⟩ => ⟨S4001792, .i32⟩
  | .hbm, ⟨79, _⟩ => ⟨S4001792, .i32⟩
  | .hbm, ⟨80, _⟩ => ⟨S4001792, .i32⟩
  | .hbm, ⟨81, _⟩ => ⟨S4001792x1, .i32⟩
  | .hbm, ⟨82, _⟩ => ⟨S4001792x64, .f32⟩
  | .hbm, ⟨83, _⟩ => ⟨S4001792x64, .f32⟩
  | .hbm, ⟨84, _⟩ => ⟨S_, .f32⟩
  | .hbm, ⟨85, _⟩ => ⟨S300000x64, .f32⟩
  | .hbm, ⟨86, _⟩ => ⟨S4001792x1, .i32⟩
  | .hbm, ⟨87, _⟩ => ⟨S300000x64, .f32⟩
  | .hbm, ⟨88, _⟩ => ⟨S300000x64, .f32⟩
  | .hbm, ⟨89, _⟩ => ⟨S300000x64, .f32⟩
  | .hbm, ⟨90, _⟩ => ⟨S200000x64, .f32⟩
  | .hbm, ⟨91, _⟩ => ⟨S100000x64, .f32⟩
  | .local _ .vmem, ⟨0, _⟩ => ⟨S4096x64, .f32⟩
  | .local _ .vmem, ⟨1, _⟩ => ⟨S4096x64, .f32⟩
  | .local _ .vmem, ⟨2, _⟩ => ⟨S4096x1, .f32⟩
  | .local _ .vmem, ⟨3, _⟩ => ⟨S4096x1, .f32⟩
  | .local _ .vmem, ⟨4, _⟩ => ⟨S4096x64, .f32⟩
  | .local _ .vmem, ⟨5, _⟩ => ⟨S4096x64, .f32⟩
  | .local _ .vmem, ⟨6, _⟩ => ⟨S5000x64, .f32⟩
  | .local _ .vmem, ⟨7, _⟩ => ⟨S5000x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S4096x64, .f32⟩
  | .local _ .vmem, ⟨13, _⟩ => ⟨S4096x64, .f32⟩
  | .local _ .vmem, ⟨14, _⟩ => ⟨S4096x1, .f32⟩
  | .local _ .vmem, ⟨15, _⟩ => ⟨S4096x1, .f32⟩
  | .local _ .vmem, ⟨16, _⟩ => ⟨S4096x64, .f32⟩
  | .local _ .vmem, ⟨17, _⟩ => ⟨S4096x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S5000x64, .f32⟩
  | .local _ .vmem, ⟨22, _⟩ => ⟨S5000x64, .f32⟩
  | .local _ .vmem, ⟨23, _⟩ => ⟨S5000x64, .f32⟩
  | .local _ .vmem, ⟨24, _⟩ => ⟨S4096x64, .f32⟩
  | .local _ .vmem, ⟨25, _⟩ => ⟨S4096x64, .f32⟩
  | .local _ .vmem, ⟨26, _⟩ => ⟨S4096x1, .f32⟩
  | .local _ .vmem, ⟨27, _⟩ => ⟨S4096x1, .f32⟩
  | .local _ .vmem, ⟨28, _⟩ => ⟨S4096x64, .f32⟩
  | .local _ .vmem, ⟨29, _⟩ => ⟨S4096x64, .f32⟩
  | .local _ .vmem, ⟨30, _⟩ => ⟨S5000x64, .f32⟩
  | .local _ .vmem, ⟨31, _⟩ => ⟨S5000x64, .f32⟩
  | .local _ .vmem, ⟨32, _⟩ => ⟨S5000x64, .f32⟩
  | .local _ .vmem, ⟨33, _⟩ => ⟨S5000x64, .f32⟩
  | .local _ .vmem, ⟨34, _⟩ => ⟨S5000x64, .f32⟩
  | .local _ .vmem, ⟨35, _⟩ => ⟨S5000x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | _, _ => ⟨S200000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 40 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | _ => false

abbrev sig : RefSig :=
  ofTc nBuf bufTy 0 40 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_call0_v0 : Ref sig .tc := ⟨.hbm, 36, rfl⟩
abbrev main_v24 : Ref sig .tc := ⟨.hbm, 37, rfl⟩
abbrev main_c_6 : Ref sig .tc := ⟨.hbm, 38, rfl⟩
abbrev main_call1_v0 : Ref sig .tc := ⟨.hbm, 39, rfl⟩
abbrev main_v25 : Ref sig .tc := ⟨.hbm, 40, rfl⟩
abbrev main_cst_7 : Ref sig .tc := ⟨.hbm, 41, rfl⟩
abbrev main_call2_v0 : Ref sig .tc := ⟨.hbm, 42, rfl⟩
abbrev main_v26 : Ref sig .tc := ⟨.hbm, 43, rfl⟩
abbrev main_c_8 : Ref sig .tc := ⟨.hbm, 44, rfl⟩
abbrev main_v27 : Ref sig .tc := ⟨.hbm, 45, rfl⟩
abbrev main_v28 : Ref sig .tc := ⟨.hbm, 46, rfl⟩
abbrev main_c_9 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_10 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_c_11 : Ref sig .tc := ⟨.hbm, 59, rfl⟩
abbrev main_v39 : Ref sig .tc := ⟨.hbm, 60, rfl⟩
abbrev main_v40 : Ref sig .tc := ⟨.hbm, 61, rfl⟩
abbrev main_c_12 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_13 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_14 : Ref sig .tc := ⟨.hbm, 74, rfl⟩
abbrev main_v51 : Ref sig .tc := ⟨.hbm, 75, rfl⟩
abbrev main_v52 : Ref sig .tc := ⟨.hbm, 76, rfl⟩
abbrev main_c_15 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_16 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg0_1 : Ref sig .tc := ⟨.vmem, 31, rfl⟩
abbrev cc5_stg1_0 : Ref sig .tc := ⟨.vmem, 32, rfl⟩
abbrev cc5_stg1_1 : Ref sig .tc := ⟨.vmem, 33, rfl⟩
abbrev cc5_stg2_0 : Ref sig .tc := ⟨.vmem, 34, rfl⟩
abbrev cc5_stg2_1 : Ref sig .tc := ⟨.vmem, 35, rfl⟩
abbrev cc6_stg0_0 : Ref sig .tc := ⟨.vmem, 36, rfl⟩
abbrev cc6_stg0_1 : Ref sig .tc := ⟨.vmem, 37, rfl⟩
abbrev cc6_stg1_0 : Ref sig .tc := ⟨.vmem, 38, rfl⟩
abbrev cc6_stg1_1 : Ref sig .tc := ⟨.vmem, 39, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem0_1 : DmaSem sig := 31
abbrev cc5_sem1_0 : DmaSem sig := 32
abbrev cc5_sem1_1 : DmaSem sig := 33
abbrev cc5_sem2_0 : DmaSem sig := 34
abbrev cc5_sem2_1 : DmaSem sig := 35
abbrev cc6_sem0_0 : DmaSem sig := 36
abbrev cc6_sem0_1 : DmaSem sig := 37
abbrev cc6_sem1_0 : DmaSem sig := 38
abbrev cc6_sem1_1 : DmaSem sig := 39

abbrev nD : Nat := 1
abbrev τ : Topo := Topo.v7x

variable {F : FTy → Type} [FloatOps F]

abbrev grid0 : Pipeline.Grid := ⟨1, ![977], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4096x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![60], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![977], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S4096x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![60], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![977], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4096x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S4096x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S4096x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![60], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![60], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S5000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  concatenates_S200000x64_S100000x64_S300000x64_d0 : Shape.Concatenates [S200000x64, S100000x64] S300000x64 0
  bcast_S_S4000000 : S_.BroadcastsInDim S4000000 (![] : Fin 0 → Fin S4000000.rank)
  bcast_S_S300000 : S_.BroadcastsInDim S300000 (![] : Fin 0 → Fin S300000.rank)
  bcast_S4000000_S4000000x1_0 : S4000000.BroadcastsInDim S4000000x1 (![0] : Fin 1 → Fin S4000000x1.rank)
  pads_S4000000_S4001792_017920 : S4000000.Pads (![0] : Fin 1 → Nat) ![1792] ![0] S4001792
  h_S_ : 0 < S_.numel
  pads_S4000000x1_S4001792x1_017920_000 : S4000000x1.Pads (![0, 0] : Fin 2 → Nat) ![1792, 0] ![0, 0] S4001792x1
  bcast_S_S4001792 : S_.BroadcastsInDim S4001792 (![] : Fin 0 → Fin S4001792.rank)
  bcast_S4001792_S4001792x1_0 : S4001792.BroadcastsInDim S4001792x1 (![0] : Fin 1 → Fin S4001792x1.rank)
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  broadcasts_S4096x1_S4096x64 : S4096x1.Broadcasts S4096x64
  bcast_S_S300000x64 : S_.BroadcastsInDim S300000x64 (![] : Fin 0 → Fin S300000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  slices_S300000x64_S200000x64_0_0 : S300000x64.Slices ![0, 0] S200000x64
  slices_S300000x64_S100000x64_200000_0 : S300000x64.Slices ![200000, 0] S100000x64
  scatter_S300000_S4000000x1_S4000000_n_0_0_1_wf : ScatterDims.WF S300000 S4000000x1 S4000000 [] [0] [0] 1
  gather_S300000_S4000000x1_S4000000_n_0_n_n_0_1_1_wf : GatherDims.WF S300000 S4000000x1 S4000000 [] [0] [] [0] [] 1 ![1]
  gather_S300000x64_S4001792x1_S4001792x64_1_0_n_n_0_1_164_wf : GatherDims.WF S300000x64 S4001792x1 S4001792x64 [1] [0] [] [0] [] 1 ![1, 64]
  scatter_S300000x64_S4001792x1_S4001792x64_1_0_0_1_wf : ScatterDims.WF S300000x64 S4001792x1 S4001792x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x64.size a ≤ S4001792x64.size a
  hwx0_0 : ∀ i : grid0.Coords, EltTy.bits .f32 = 32 ∨ (Rect.block (s := S4001792x64) S4096x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x1.size a ≤ S4001792x1.size a
  hwx0_1 : ∀ i : grid0.Coords, EltTy.bits .f32 = 32 ∨ (Rect.block (s := S4001792x1) S4096x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4096x64.size a ≤ S4001792x64.size a
  hwx0_2 : ∀ i : grid0.Coords, EltTy.bits .f32 = 32 ∨ (Rect.block (s := S4001792x64) S4096x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S300000x64.size a
  hwx1_0 : ∀ i : grid1.Coords, EltTy.bits .f32 = 32 ∨ (Rect.block (s := S300000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x64.size a ≤ S300000x64.size a
  hwx1_1 : ∀ i : grid1.Coords, EltTy.bits .f32 = 32 ∨ (Rect.block (s := S300000x64) S5000x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S300000x64.size a
  hwx1_2 : ∀ i : grid1.Coords, EltTy.bits .f32 = 32 ∨ (Rect.block (s := S300000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S4001792x64.size a
  hwx2_0 : ∀ i : grid2.Coords, EltTy.bits .f32 = 32 ∨ (Rect.block (s := S4001792x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S4001792x1.size a
  hwx2_1 : ∀ i : grid2.Coords, EltTy.bits .f32 = 32 ∨ (Rect.block (s := S4001792x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4096x64.size a ≤ S4001792x64.size a
  hwx2_2 : ∀ i : grid2.Coords, EltTy.bits .f32 = 32 ∨ (Rect.block (s := S4001792x64) S4096x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S300000x64.size a
  hwx3_0 : ∀ i : grid3.Coords, EltTy.bits .f32 = 32 ∨ (Rect.block (s := S300000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x64.size a ≤ S300000x64.size a
  hwx3_1 : ∀ i : grid3.Coords, EltTy.bits .f32 = 32 ∨ (Rect.block (s := S300000x64) S5000x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S300000x64.size a
  hwx3_2 : ∀ i : grid3.Coords, EltTy.bits .f32 = 32 ∨ (Rect.block (s := S300000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4096x64.size a ≤ S4001792x64.size a
  hwx4_0 : ∀ i : grid4.Coords, EltTy.bits .f32 = 32 ∨ (Rect.block (s := S4001792x64) S4096x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S4096x1.size a ≤ S4001792x1.size a
  hwx4_1 : ∀ i : grid4.Coords, EltTy.bits .f32 = 32 ∨ (Rect.block (s := S4001792x1) S4096x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4096x64.size a ≤ S4001792x64.size a
  hwx4_2 : ∀ i : grid4.Coords, EltTy.bits .f32 = 32 ∨ (Rect.block (s := S4001792x64) S4096x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S300000x64.size a
  hwx5_0 : ∀ i : grid5.Coords, EltTy.bits .f32 = 32 ∨ (Rect.block (s := S300000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x64.size a ≤ S300000x64.size a
  hwx5_1 : ∀ i : grid5.Coords, EltTy.bits .f32 = 32 ∨ (Rect.block (s := S300000x64) S5000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S300000x64.size a
  hwx5_2 : ∀ i : grid5.Coords, EltTy.bits .f32 = 32 ∨ (Rect.block (s := S300000x64) S5000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S300000x64.size a
  hwx6_0 : ∀ i : grid6.Coords, EltTy.bits .f32 = 32 ∨ (Rect.block (s := S300000x64) S5000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S5000x64.size a ≤ S300000x64.size a
  hwx6_1 : ∀ i : grid6.Coords, EltTy.bits .f32 = 32 ∨ (Rect.block (s := S300000x64) S5000x64.size (cc6_transform_1 i) (hinb6_1 i)).WholeWords (EltTy.packing .f32)

variable [Facts₀]

def scatter_S300000_S4000000x1_S4000000_n_0_0_1 : ScatterDims S300000 S4000000x1 S4000000 where
  updateWindowDims := []
  insertedWindowDims := [0]
  scatterDimsToOperandDims := [0]
  indexVectorDim := 1
  wf := scatter_S300000_S4000000x1_S4000000_n_0_0_1_wf
def gather_S300000_S4000000x1_S4000000_n_0_n_n_0_1_1 : GatherDims S300000 S4000000x1 S4000000 where
  offsetDims := []
  collapsedSliceDims := [0]
  operandBatchingDims := []
  startIndicesBatchingDims := []
  startIndexMap := [0]
  indexVectorDim := 1
  sliceSizes := ![1]
  wf := gather_S300000_S4000000x1_S4000000_n_0_n_n_0_1_1_wf
def gather_S300000x64_S4001792x1_S4001792x64_1_0_n_n_0_1_164 : GatherDims S300000x64 S4001792x1 S4001792x64 where
  offsetDims := [1]
  collapsedSliceDims := [0]
  operandBatchingDims := []
  startIndicesBatchingDims := []
  startIndexMap := [0]
  indexVectorDim := 1
  sliceSizes := ![1, 64]
  wf := gather_S300000x64_S4001792x1_S4001792x64_1_0_n_n_0_1_164_wf
def scatter_S300000x64_S4001792x1_S4001792x64_1_0_0_1 : ScatterDims S300000x64 S4001792x1 S4001792x64 where
  updateWindowDims := [1]
  insertedWindowDims := [0]
  scatterDimsToOperandDims := [0]
  indexVectorDim := 1
  wf := scatter_S300000x64_S4001792x1_S4001792x64_1_0_0_1_wf

abbrev win0_0 : Pipeline.Window sig grid0 :=
  Pipeline.Window.ofSpec (Memref.whole main_v33) S4096x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4096x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v34) S4096x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S5000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v38) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v26) S4096x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v46) S4096x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v38) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v49) S5000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v50) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v57) S4096x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v26) S4096x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v58) S4096x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v50) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v61) S5000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v62) S5000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v62) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v63) S5000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S200000x64 : Shape := ⟨2, ![200000, 64]⟩
abbrev S100000x64 : Shape := ⟨2, ![100000, 64]⟩
abbrev S4000000 : Shape := ⟨1, ![4000000]⟩
abbrev S300000x64 : Shape := ⟨2, ![300000, 64]⟩
abbrev S_ : Shape := ⟨0, ![]⟩
abbrev S300000 : Shape := ⟨1, ![300000]⟩
abbrev S4000000x1 : Shape := ⟨2, ![4000000, 1]⟩
abbrev S4000000x64 : Shape := ⟨2, ![4000000, 64]⟩

abbrev nBuf : Space → Nat
  | .hbm => 88
  | .vmem => 0
  | .smem => 0
  | _ => 0

abbrev bufTy : (tb : Table) → Fin (tcTables nBuf tb) → BufTy
  | .hbm, ⟨0, _⟩ => ⟨S200000x64, .f32⟩
  | .hbm, ⟨1, _⟩ => ⟨S100000x64, .f32⟩
  | .hbm, ⟨2, _⟩ => ⟨S4000000, .i32⟩
  | .hbm, ⟨3, _⟩ => ⟨S4000000, .i32⟩
  | .hbm, ⟨4, _⟩ => ⟨S300000x64, .f32⟩
  | .hbm, ⟨5, _⟩ => ⟨S_, .f32⟩
  | .hbm, ⟨6, _⟩ => ⟨S4000000, .f32⟩
  | .hbm, ⟨7, _⟩ => ⟨S_, .f32⟩
  | .hbm, ⟨8, _⟩ => ⟨S300000, .f32⟩
  | .hbm, ⟨9, _⟩ => ⟨S4000000x1, .i32⟩
  | .hbm, ⟨10, _⟩ => ⟨S300000, .f32⟩
  | .hbm, ⟨11, _⟩ => ⟨S_, .f32⟩
  | .hbm, ⟨12, _⟩ => ⟨S300000, .f32⟩
  | .hbm, ⟨13, _⟩ => ⟨S300000, .f32⟩
  | .hbm, ⟨14, _⟩ => ⟨S300000, .f32⟩
  | .hbm, ⟨15, _⟩ => ⟨S_, .i32⟩
  | .hbm, ⟨16, _⟩ => ⟨S4000000, .i32⟩
  | .hbm, ⟨17, _⟩ => ⟨S4000000, .i1⟩
  | .hbm, ⟨18, _⟩ => ⟨S_, .i32⟩
  | .hbm, ⟨19, _⟩ => ⟨S4000000, .i32⟩
  | .hbm, ⟨20, _⟩ => ⟨S4000000, .i32⟩
  | .hbm, ⟨21, _⟩ => ⟨S4000000, .i32⟩
  | .hbm, ⟨22, _⟩ => ⟨S4000000x1, .i32⟩
  | .hbm, ⟨23, _⟩ => ⟨S4000000, .f32⟩
  | .hbm, ⟨24, _⟩ => ⟨S_, .i32⟩
  | .hbm, ⟨25, _⟩ => ⟨S4000000, .i32⟩
  | .hbm, ⟨26, _⟩ => ⟨S4000000, .i1⟩
  | .hbm, ⟨27, _⟩ => ⟨S_, .i32⟩
  | .hbm, ⟨28, _⟩ => ⟨S4000000, .i32⟩
  | .hbm, ⟨29, _⟩ => ⟨S4000000, .i32⟩
  | .hbm, ⟨30, _⟩ => ⟨S4000000, .i32⟩
  | .hbm, ⟨31, _⟩ => ⟨S4000000x1, .i32⟩
  | .hbm, ⟨32, _⟩ => ⟨S4000000, .f32⟩
  | .hbm, ⟨33, _⟩ => ⟨S4000000, .f32⟩
  | .hbm, ⟨34, _⟩ => ⟨S4000000x1, .f32⟩
  | .hbm, ⟨35, _⟩ => ⟨S_, .i32⟩
  | .hbm, ⟨36, _⟩ => ⟨S4000000, .i32⟩
  | .hbm, ⟨37, _⟩ => ⟨S4000000, .i1⟩
  | .hbm, ⟨38, _⟩ => ⟨S_, .i32⟩
  | .hbm, ⟨39, _⟩ => ⟨S4000000, .i32⟩
  | .hbm, ⟨40, _⟩ => ⟨S4000000, .i32⟩
  | .hbm, ⟨41, _⟩ => ⟨S4000000, .i32⟩
  | .hbm, ⟨42, _⟩ => ⟨S4000000x1, .i32⟩
  | .hbm, ⟨43, _⟩ => ⟨S4000000x64, .f32⟩
  | .hbm, ⟨44, _⟩ => ⟨S4000000x64, .f32⟩
  | .hbm, ⟨45, _⟩ => ⟨S4000000x64, .f32⟩
  | .hbm, ⟨46, _⟩ => ⟨S_, .f32⟩
  | .hbm, ⟨47, _⟩ => ⟨S300000x64, .f32⟩
  | .hbm, ⟨48, _⟩ => ⟨S4000000x1, .i32⟩
  | .hbm, ⟨49, _⟩ => ⟨S300000x64, .f32⟩
  | .hbm, ⟨50, _⟩ => ⟨S300000x64, .f32⟩
  | .hbm, ⟨51, _⟩ => ⟨S_, .i32⟩
  | .hbm, ⟨52, _⟩ => ⟨S4000000, .i32⟩
  | .hbm, ⟨53, _⟩ => ⟨S4000000, .i1⟩
  | .hbm, ⟨54, _⟩ => ⟨S_, .i32⟩
  | .hbm, ⟨55, _⟩ => ⟨S4000000, .i32⟩
  | .hbm, ⟨56, _⟩ => ⟨S4000000, .i32⟩
  | .hbm, ⟨57, _⟩ => ⟨S4000000, .i32⟩
  | .hbm, ⟨58, _⟩ => ⟨S4000000x1, .i32⟩
  | .hbm, ⟨59, _⟩ => ⟨S4000000x64, .f32⟩
  | .hbm, ⟨60, _⟩ => ⟨S4000000x64, .f32⟩
  | .hbm, ⟨61, _⟩ => ⟨S4000000x64, .f32⟩
  | .hbm, ⟨62, _⟩ => ⟨S_, .f32⟩
  | .hbm, ⟨63, _⟩ => ⟨S300000x64, .f32⟩
  | .hbm, ⟨64, _⟩ => ⟨S4000000x1, .i32⟩
  | .hbm, ⟨65, _⟩ => ⟨S300000x64, .f32⟩
  | .hbm, ⟨66, _⟩ => ⟨S300000x64, .f32⟩
  | .hbm, ⟨67, _⟩ => ⟨S_, .i32⟩
  | .hbm, ⟨68, _⟩ => ⟨S4000000, .i32⟩
  | .hbm, ⟨69, _⟩ => ⟨S4000000, .i1⟩
  | .hbm, ⟨70, _⟩ => ⟨S_, .i32⟩
  | .hbm, ⟨71, _⟩ => ⟨S4000000, .i32⟩
  | .hbm, ⟨72, _⟩ => ⟨S4000000, .i32⟩
  | .hbm, ⟨73, _⟩ => ⟨S4000000, .i32⟩
  | .hbm, ⟨74, _⟩ => ⟨S4000000x1, .i32⟩
  | .hbm, ⟨75, _⟩ => ⟨S4000000x64, .f32⟩
  | .hbm, ⟨76, _⟩ => ⟨S4000000x64, .f32⟩
  | .hbm, ⟨77, _⟩ => ⟨S4000000x64, .f32⟩
  | .hbm, ⟨78, _⟩ => ⟨S_, .f32⟩
  | .hbm, ⟨79, _⟩ => ⟨S300000x64, .f32⟩
  | .hbm, ⟨80, _⟩ => ⟨S4000000x1, .i32⟩
  | .hbm, ⟨81, _⟩ => ⟨S300000x64, .f32⟩
  | .hbm, ⟨82, _⟩ => ⟨S300000x64, .f32⟩
  | .hbm, ⟨83, _⟩ => ⟨S_, .f32⟩
  | .hbm, ⟨84, _⟩ => ⟨S300000x64, .f32⟩
  | .hbm, ⟨85, _⟩ => ⟨S300000x64, .f32⟩
  | .hbm, ⟨86, _⟩ => ⟨S200000x64, .f32⟩
  | .hbm, ⟨87, _⟩ => ⟨S100000x64, .f32⟩
  | _, _ => ⟨S200000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_3 : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_c_5 : Ref sig .tc := ⟨.hbm, 35, rfl⟩
abbrev main_v24 : Ref sig .tc := ⟨.hbm, 36, rfl⟩
abbrev main_v25 : Ref sig .tc := ⟨.hbm, 37, rfl⟩
abbrev main_c_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_c_8 : Ref sig .tc := ⟨.hbm, 51, rfl⟩
abbrev main_v37 : Ref sig .tc := ⟨.hbm, 52, rfl⟩
abbrev main_v38 : Ref sig .tc := ⟨.hbm, 53, rfl⟩
abbrev main_c_9 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_10 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_11 : Ref sig .tc := ⟨.hbm, 67, rfl⟩
abbrev main_v50 : Ref sig .tc := ⟨.hbm, 68, rfl⟩
abbrev main_v51 : Ref sig .tc := ⟨.hbm, 69, rfl⟩
abbrev main_c_12 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_cst_13 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_cst_14 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩

abbrev nD : Nat := 1
abbrev τ : Topo := Topo.v7x

variable {F : FTy → Type} [FloatOps F]

class Facts₀ : Prop where
  concatenates_S200000x64_S100000x64_S300000x64_d0 : Shape.Concatenates [S200000x64, S100000x64] S300000x64 0
  bcast_S_S4000000 : S_.BroadcastsInDim S4000000 (![] : Fin 0 → Fin S4000000.rank)
  bcast_S_S300000 : S_.BroadcastsInDim S300000 (![] : Fin 0 → Fin S300000.rank)
  bcast_S4000000_S4000000x1_0 : S4000000.BroadcastsInDim S4000000x1 (![0] : Fin 1 → Fin S4000000x1.rank)
  bcast_S4000000x1_S4000000x64_0_1 : S4000000x1.BroadcastsInDim S4000000x64 (![0, 1] : Fin 2 → Fin S4000000x64.rank)
  bcast_S_S300000x64 : S_.BroadcastsInDim S300000x64 (![] : Fin 0 → Fin S300000x64.rank)
  slices_S300000x64_S200000x64_0_0 : S300000x64.Slices ![0, 0] S200000x64
  slices_S300000x64_S100000x64_200000_0 : S300000x64.Slices ![200000, 0] S100000x64
  scatter_S300000_S4000000x1_S4000000_n_0_0_1_wf : ScatterDims.WF S300000 S4000000x1 S4000000 [] [0] [0] 1
  gather_S300000_S4000000x1_S4000000_n_0_n_n_0_1_1_wf : GatherDims.WF S300000 S4000000x1 S4000000 [] [0] [] [0] [] 1 ![1]
  gather_S300000x64_S4000000x1_S4000000x64_1_0_n_n_0_1_164_wf : GatherDims.WF S300000x64 S4000000x1 S4000000x64 [1] [0] [] [0] [] 1 ![1, 64]
  scatter_S300000x64_S4000000x1_S4000000x64_1_0_0_1_wf : ScatterDims.WF S300000x64 S4000000x1 S4000000x64 [1] [0] [0] 1

variable [Facts₀]

def scatter_S300000_S4000000x1_S4000000_n_0_0_1 : ScatterDims S300000 S4000000x1 S4000000 where
  updateWindowDims := []
  insertedWindowDims := [0]
  scatterDimsToOperandDims := [0]
  indexVectorDim := 1
  wf := scatter_S300000_S4000000x1_S4000000_n_0_0_1_wf
def gather_S300000_S4000000x1_S4000000_n_0_n_n_0_1_1 : GatherDims S300000 S4000000x1 S4000000 where
  offsetDims := []
  collapsedSliceDims := [0]
  operandBatchingDims := []
  startIndicesBatchingDims := []
  startIndexMap := [0]
  indexVectorDim := 1
  sliceSizes := ![1]
  wf := gather_S300000_S4000000x1_S4000000_n_0_n_n_0_1_1_wf
def gather_S300000x64_S4000000x1_S4000000x64_1_0_n_n_0_1_164 : GatherDims S300000x64 S4000000x1 S4000000x64 where
  offsetDims := [1]
  collapsedSliceDims := [0]
  operandBatchingDims := []
  startIndicesBatchingDims := []
  startIndexMap := [0]
  indexVectorDim := 1
  sliceSizes := ![1, 64]
  wf := gather_S300000x64_S4000000x1_S4000000x64_1_0_n_n_0_1_164_wf
def scatter_S300000x64_S4000000x1_S4000000x64_1_0_0_1 : ScatterDims S300000x64 S4000000x1 S4000000x64 where
  updateWindowDims := [1]
  insertedWindowDims := [0]
  scatterDimsToOperandDims := [0]
  indexVectorDim := 1
  wf := scatter_S300000x64_S4000000x1_S4000000x64_1_0_0_1_wf

class Facts : Prop extends Facts₀ where

variable [Facts]
-- ==== Proof.KernelRun.lean ====
/-
  The idealized kernel's run with its two results NAMED. Every weakly fair execution of @main terminates without a
  fault, and in the final state each unscoped buffer holds what the fold through @main's twenty segments leaves in
  it: seven stretches of host operations, the first weighted-product region, and then alternately a stretch of host
  operations (a scatter-add, a gather) and a region, down to the two row slices of the scaled sum. The two result
  buffers are read off that last boundary; the argument arrays are read back to the launch memory.
-/
import proofs.«113974_j89670327206250_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the idealized kernel program: the two results end at the last boundary's contents `W20`, the four
    arguments as launched. -/
theorem run_named : θ_run defs (onTc (τ := τ) (main (F := F))) ⟨m, fun _ => 0, ρ⟩ (fun r => ∀ c : Dev nD,
      r.2.mem ((c.tc : Thread nD τ).loc main_v64) = W20 m ρ c (Proc.devRef .tc main_v64)
      ∧ r.2.mem ((c.tc : Thread nD τ).loc main_v65) = W20 m ρ c (Proc.devRef .tc main_v65)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W20 m ρ c b)
    (hfin := fun c s' => by
      iintro ⟨⟨Hh, -⟩, HSI⟩
      unfold StableHlo.held
      imodintro
      iapply (pointsTo_read_all (Pipeline.ucRefs τ sig) (fun b => (((c : Thread nD τ)).1, b)) (W20 m ρ c) s')
      isplitl [Hh] <;> iassumption)
    (hQ := fun s h c =>
      ⟨h c _ (mem_uc main_v64 (by decide)),
       h c _ (mem_uc main_v65 (by decide)),
       (h c _ (mem_uc main_arg0 (by decide))).trans (W20_main_arg0 m ρ c),
       (h c _ (mem_uc main_arg1 (by decide))).trans (W20_main_arg1 m ρ c),
       (h c _ (mem_uc main_arg2 (by decide))).trans (W20_main_arg2 m ρ c),
       (h c _ (mem_uc main_arg3 (by decide))).trans (W20_main_arg3 m ρ c)⟩)

end Cert.KernelIdeal.RunValue

end
-- ==== Proof.KernelOps.lean ====
/-
  The two irregular host operations of the idealized kernel program, as functions: the gather of the rows of a node
  table at the padded target indices, negative indices wrapped by the number of nodes first, and the scatter-add of
  per-edge rows into the node table, onto zeros, at the padded source indices.
-/
import proofs.«113974_j89670327206250_2_alg».proof.Proof.Gen.KernelIdeal.Frame
import Idealize.ShloMosaic.PureOps.Ideal

set_option maxRecDepth 16384

noncomputable section

namespace Cert.KernelIdeal.Walk

open Cert.KernelIdeal Cert.KernelIdeal.Gen Idealize.ShloMosaic

/-- A padded index column with negative entries wrapped by 300000, as an index matrix of one column. -/
def wrapD (a : IVec S4001792 32) : IVec S4001792x1 32 :=
  broadcastInDim S4001792x1 ![0] bcast_S4001792_S4001792x1_0 (select (cmpi .slt a (broadcastInDim S4001792 ![] bcast_S_S4001792 (constantI S_ 32 0#32))) (addi a (broadcastInDim S4001792 ![] bcast_S_S4001792 (constantI S_ 32 300000#32))) a)

/-- Row `e` of the result is the row of `h` named by entry `e` of the wrapped indices (clamped into the table). -/
def gatherK (h : FVec Ideal S300000x64 .f32) (a : IVec S4001792 32) : FVec Ideal S4001792x64 .f32 :=
  Host.gather gather_S300000x64_S4001792x1_S4001792x64_1_0_n_n_0_1_164 h (wrapD a)

/-- Row `n` of the result is the sum of the rows `e` of `u` whose index entry is `n` (an entry outside the table adds nothing). -/
def scatterK (a : IVec S4001792 32) (u : FVec Ideal S4001792x64 .f32) : FVec Ideal S300000x64 .f32 :=
  Host.scatterAdd scatter_S300000x64_S4001792x1_S4001792x64_1_0_0_1 (broadcastInDim S300000x64 ![] bcast_S_S300000x64 (constant (F := Ideal) S_ .f32 0x00000000#32))
    (broadcastInDim S4001792x1 ![0] bcast_S4001792_S4001792x1_0 a) u

end Cert.KernelIdeal.Walk

end
-- ==== Proof.KernelWalk.lean ====
/-
  What each live buffer of the idealized kernel program holds at each of the twenty-one boundaries between @main's
  segments. A segment is a stretch of host operations or one region. A buffer a stretch does not write, and a buffer
  that is no array of a region, is unchanged across it; so is a region's INPUT array (its blocks are only fetched).
  A buffer a stretch writes holds its operation's value of the stretch's entry contents: a row gather through the
  padded, wrapped target indices (`gatherK`), a row scatter-add through the padded source indices onto zeros
  (`scatterK`), a row slice. A region's output array holds what the pipeline's write-backs leave in it.
-/
import proofs.«113974_j89670327206250_2_alg».proof.Proof.KernelOps

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## Unchanged across a segment -/

theorem keep_v0_W2 : W2 m ρ c (Proc.devRef .tc main_v0) = W1 m ρ c (Proc.devRef .tc main_v0) :=
  StableHlo.after_of_forall_not_mem (b := Proc.devRef .tc main_v0) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W3 : W3 m ρ c (Proc.devRef .tc main_v0) = W2 m ρ c (Proc.devRef .tc main_v0) :=
  StableHlo.after_of_forall_not_mem (b := Proc.devRef .tc main_v0) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W4 : W4 m ρ c (Proc.devRef .tc main_v0) = W3 m ρ c (Proc.devRef .tc main_v0) :=
  StableHlo.after_of_forall_not_mem (b := Proc.devRef .tc main_v0) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W5 : W5 m ρ c (Proc.devRef .tc main_v0) = W4 m ρ c (Proc.devRef .tc main_v0) :=
  StableHlo.after_of_forall_not_mem (b := Proc.devRef .tc main_v0) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W6 : W6 m ρ c (Proc.devRef .tc main_v0) = W5 m ρ c (Proc.devRef .tc main_v0) :=
  StableHlo.after_of_forall_not_mem (b := Proc.devRef .tc main_v0) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W7 : W7 m ρ c (Proc.devRef .tc main_v0) = W6 m ρ c (Proc.devRef .tc main_v0) :=
  StableHlo.after_of_forall_not_mem (b := Proc.devRef .tc main_v0) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v0_W8 : W8 m ρ c (Proc.devRef .tc main_v0) = W7 m ρ c (Proc.devRef .tc main_v0) :=
  W8_of_ne m ρ c main_v0 (by decide)

theorem keep_v0_W9 : W9 m ρ c (Proc.devRef .tc main_v0) = W8 m ρ c (Proc.devRef .tc main_v0) :=
  StableHlo.after_of_forall_not_mem (b := Proc.devRef .tc main_v0) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W3 : W3 m ρ c (Proc.devRef .tc main_v24) = W2 m ρ c (Proc.devRef .tc main_v24) :=
  StableHlo.after_of_forall_not_mem (b := Proc.devRef .tc main_v24) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W4 : W4 m ρ c (Proc.devRef .tc main_v24) = W3 m ρ c (Proc.devRef .tc main_v24) :=
  StableHlo.after_of_forall_not_mem (b := Proc.devRef .tc main_v24) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W5 : W5 m ρ c (Proc.devRef .tc main_v24) = W4 m ρ c (Proc.devRef .tc main_v24) :=
  StableHlo.after_of_forall_not_mem (b := Proc.devRef .tc main_v24) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W6 : W6 m ρ c (Proc.devRef .tc main_v24) = W5 m ρ c (Proc.devRef .tc main_v24) :=
  StableHlo.after_of_forall_not_mem (b := Proc.devRef .tc main_v24) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W7 : W7 m ρ c (Proc.devRef .tc main_v24) = W6 m ρ c (Proc.devRef .tc main_v24) :=
  StableHlo.after_of_forall_not_mem (b := Proc.devRef .tc main_v24) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W8 : W8 m ρ c (Proc.devRef .tc main_v24) = W7 m ρ c (Proc.devRef .tc main_v24) :=
  W8_of_ne m ρ c main_v24 (by decide)

theorem keep_v24_W9 : W9 m ρ c (Proc.devRef .tc main_v24) = W8 m ρ c (Proc.devRef .tc main_v24) :=
  StableHlo.after_of_forall_not_mem (b := Proc.devRef .tc main_v24) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W10 : W10 m ρ c (Proc.devRef .tc main_v24) = W9 m ρ c (Proc.devRef .tc main_v24) :=
  W10_of_ne m ρ c main_v24 (by decide)

theorem keep_v24_W11 : W11 m ρ c (Proc.devRef .tc main_v24) = W10 m ρ c (Proc.devRef .tc main_v24) :=
  StableHlo.after_of_forall_not_mem (b := Proc.devRef .tc main_v24) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W12 : W12 m ρ c (Proc.devRef .tc main_v24) = W11 m ρ c (Proc.devRef .tc main_v24) :=
  W12_of_ne m ρ c main_v24 (by decide)

theorem keep_v24_W13 : W13 m ρ c (Proc.devRef .tc main_v24) = W12 m ρ c (Proc.devRef .tc main_v24) :=
  StableHlo.after_of_forall_not_mem (b := Proc.devRef .tc main_v24) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v24_W14 : W14 m ρ c (Proc.devRef .tc main_v24) = W13 m ρ c (Proc.devRef .tc main_v24) :=
  W14_of_ne m ρ c main_v24 (by decide)

theorem keep_v25_W5 : W5 m ρ c (Proc.devRef .tc main_v25) = W4 m ρ c (Proc.devRef .tc main_v25) :=
  StableHlo.after_of_forall_not_mem (b := Proc.devRef .tc main_v25) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W6 : W6 m ρ c (Proc.devRef .tc main_v25) = W5 m ρ c (Proc.devRef .tc main_v25) :=
  StableHlo.after_of_forall_not_mem (b := Proc.devRef .tc main_v25) _ _ (List.forall_iff_forall_mem.mp (by
    simp only [hostOps0_5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W7 : W7 m ρ c (Proc.devRef .tc main_v25) = W6 m ρ c (Proc.devRef .tc main_v25) :=
  StableHlo.after_of_forall_not_mem (b := Proc.devRef .tc main_v25) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W8 : W8 m ρ c (Proc.devRef .tc main_v25) = W7 m ρ c (Proc.devRef .tc main_v25) :=
  W8_of_ne m ρ c main_v25 (by decide)

theorem keep_v25_W9 : W9 m ρ c (Proc.devRef .tc main_v25) = W8 m ρ c (Proc.devRef .tc main_v25) :=
  StableHlo.after_of_forall_not_mem (b := Proc.devRef .tc main_v25) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W10 : W10 m ρ c (Proc.devRef .tc main_v25) = W9 m ρ c (Proc.devRef .tc main_v25) :=
  W10_of_ne m ρ c main_v25 (by decide)

theorem keep_v25_W11 : W11 m ρ c (Proc.devRef .tc main_v25) = W10 m ρ c (Proc.devRef .tc main_v25) :=
  StableHlo.after_of_forall_not_mem (b := Proc.devRef .tc main_v25) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W12 : W12 m ρ c (Proc.devRef .tc main_v25) = W11 m ρ c (Proc.devRef .tc main_v25) :=
  W12_of_ne m ρ c main_v25 (by decide)

theorem keep_v25_W13 : W13 m ρ c (Proc.devRef .tc main_v25) = W12 m ρ c (Proc.devRef .tc main_v25) :=
  StableHlo.after_of_forall_not_mem (b := Proc.devRef .tc main_v25) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W14 : W14 m ρ c (Proc.devRef .tc main_v25) = W13 m ρ c (Proc.devRef .tc main_v25) :=
  W14_of_ne m ρ c main_v25 (by decide)

theorem keep_v25_W15 : W15 m ρ c (Proc.devRef .tc main_v25) = W14 m ρ c (Proc.devRef .tc main_v25) :=
  StableHlo.after_of_forall_not_mem (b := Proc.devRef .tc main_v25) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v25_W16 : W16 m ρ c (Proc.devRef .tc main_v25) = W15 m ρ c (Proc.devRef .tc main_v25) :=
  W16_of_ne m ρ c main_v25 (by decide)

theorem keep_v26_W7 : W7 m ρ c (Proc.devRef .tc main_v26) = W6 m ρ c (Proc.devRef .tc main_v26) :=
  StableHlo.after_of_forall_not_mem (b := Proc.devRef .tc main_v26) _ _ (List.forall_iff_forall_mem.mp (by
    simp only [hostOps0_6, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v26_W8 : W8 m ρ c (Proc.devRef .tc main_v26) = W7 m ρ c (Proc.devRef .tc main_v26) := by
  have h := W8_arr m ρ c 1
  rw [Pipeline.Dat.arrAt_in _ 1 rfl, A_eq0] at h
  exact h

theorem keep_v26_W9 : W9 m ρ c (Proc.devRef .tc main_v26) = W8 m ρ c (Proc.devRef .tc main_v26) :=
  StableHlo.after_of_forall_not_mem (b := Proc.devRef .tc main_v26) _ _ (List.forall_iff_forall_mem.mp (by
    simp only [hostOps1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v26_W10 : W10 m ρ c (Proc.devRef .tc main_v26) = W9 m ρ c (Proc.devRef .tc main_v26) :=
  W10_of_ne m ρ c main_v26 (by decide)

theorem keep_v26_W11 : W11 m ρ c (Proc.devRef .tc main_v26) = W10 m ρ c (Proc.devRef .tc main_v26) :=
  StableHlo.after_of_forall_not_mem (b := Proc.devRef .tc main_v26) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v26_W12 : W12 m ρ c (Proc.devRef .tc main_v26) = W11 m ρ c (Proc.devRef .tc main_v26) := by
  have h := W12_arr m ρ c 1
  rw [Pipeline.Dat.arrAt_in _ 1 rfl, A_eq2] at h
  exact h

theorem keep_v26_W13 : W13 m ρ c (Proc.devRef .tc main_v26) = W12 m ρ c (Proc.devRef .tc main_v26) :=
  StableHlo.after_of_forall_not_mem (b := Proc.devRef .tc main_v26) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v26_W14 : W14 m ρ c (Proc.devRef .tc main_v26) = W13 m ρ c (Proc.devRef .tc main_v26) :=
  W14_of_ne m ρ c main_v26 (by decide)

theorem keep_v26_W15 : W15 m ρ c (Proc.devRef .tc main_v26) = W14 m ρ c (Proc.devRef .tc main_v26) :=
  StableHlo.after_of_forall_not_mem (b := Proc.devRef .tc main_v26) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v37_W10 : W10 m ρ c (Proc.devRef .tc main_v37) = W9 m ρ c (Proc.devRef .tc main_v37) := by
  have h := W10_arr m ρ c 1
  rw [Pipeline.Dat.arrAt_in _ 1 rfl, A_eq1] at h
  exact h

theorem keep_v38_W11 : W11 m ρ c (Proc.devRef .tc main_v38) = W10 m ρ c (Proc.devRef .tc main_v38) :=
  StableHlo.after_of_forall_not_mem (b := Proc.devRef .tc main_v38) _ _ (List.forall_iff_forall_mem.mp (by
    simp only [hostOps2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v38_W12 : W12 m ρ c (Proc.devRef .tc main_v38) = W11 m ρ c (Proc.devRef .tc main_v38) :=
  W12_of_ne m ρ c main_v38 (by decide)

theorem keep_v38_W13 : W13 m ρ c (Proc.devRef .tc main_v38) = W12 m ρ c (Proc.devRef .tc main_v38) :=
  StableHlo.after_of_forall_not_mem (b := Proc.devRef .tc main_v38) _ _ (List.forall_iff_forall_mem.mp (by
    simp only [hostOps3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v49_W14 : W14 m ρ c (Proc.devRef .tc main_v49) = W13 m ρ c (Proc.devRef .tc main_v49) := by
  have h := W14_arr m ρ c 1
  rw [Pipeline.Dat.arrAt_in _ 1 rfl, A_eq3] at h
  exact h

theorem keep_v50_W15 : W15 m ρ c (Proc.devRef .tc main_v50) = W14 m ρ c (Proc.devRef .tc main_v50) :=
  StableHlo.after_of_forall_not_mem (b := Proc.devRef .tc main_v50) _ _ (List.forall_iff_forall_mem.mp (by
    simp only [hostOps4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v50_W16 : W16 m ρ c (Proc.devRef .tc main_v50) = W15 m ρ c (Proc.devRef .tc main_v50) :=
  W16_of_ne m ρ c main_v50 (by decide)

theorem keep_v50_W17 : W17 m ρ c (Proc.devRef .tc main_v50) = W16 m ρ c (Proc.devRef .tc main_v50) :=
  StableHlo.after_of_forall_not_mem (b := Proc.devRef .tc main_v50) _ _ (List.forall_iff_forall_mem.mp (by
    simp only [hostOps5, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## Written by a segment -/

theorem read_v33_W7 : W7 m ρ c (Proc.devRef .tc main_v33) = gatherK (W6 m ρ c (Proc.devRef .tc main_v0)) (W6 m ρ c (Proc.devRef .tc main_v24)) := by
  show StableHlo.after hostOps0_6 (W6 m ρ c) (Proc.devRef .tc main_v33) = gatherK (W6 m ρ c (Proc.devRef .tc main_v0)) (W6 m ρ c (Proc.devRef .tc main_v24))
  generalize W6 m ρ c = V
  dsimp only [hostOps0_6]
  after_results
  all_goals rfl

theorem read_v34_W8 : W8 m ρ c (Proc.devRef .tc main_v34) = (dat0 (V7 m ρ) c).arrAt 2 cfg0.N := W8_arr m ρ c 2

theorem read_v37_W9 : W9 m ρ c (Proc.devRef .tc main_v37) = scatterK (W8 m ρ c (Proc.devRef .tc main_v25)) (W8 m ρ c (Proc.devRef .tc main_v34)) := by
  show StableHlo.after hostOps1 (W8 m ρ c) (Proc.devRef .tc main_v37) = scatterK (W8 m ρ c (Proc.devRef .tc main_v25)) (W8 m ρ c (Proc.devRef .tc main_v34))
  dsimp only [hostOps1]
  after_results
  all_goals rfl

theorem read_v38_W10 : W10 m ρ c (Proc.devRef .tc main_v38) = (dat1 (V9 m ρ) c).arrAt 2 cfg1.N := W10_arr m ρ c 2

theorem read_v45_W11 : W11 m ρ c (Proc.devRef .tc main_v45) = gatherK (W10 m ρ c (Proc.devRef .tc main_v37)) (W10 m ρ c (Proc.devRef .tc main_v24)) := by
  show StableHlo.after hostOps2 (W10 m ρ c) (Proc.devRef .tc main_v45) = gatherK (W10 m ρ c (Proc.devRef .tc main_v37)) (W10 m ρ c (Proc.devRef .tc main_v24))
  dsimp only [hostOps2]
  after_results
  all_goals rfl

theorem read_v46_W12 : W12 m ρ c (Proc.devRef .tc main_v46) = (dat2 (V11 m ρ) c).arrAt 2 cfg2.N := W12_arr m ρ c 2

theorem read_v49_W13 : W13 m ρ c (Proc.devRef .tc main_v49) = scatterK (W12 m ρ c (Proc.devRef .tc main_v25)) (W12 m ρ c (Proc.devRef .tc main_v46)) := by
  show StableHlo.after hostOps3 (W12 m ρ c) (Proc.devRef .tc main_v49) = scatterK (W12 m ρ c (Proc.devRef .tc main_v25)) (W12 m ρ c (Proc.devRef .tc main_v46))
  dsimp only [hostOps3]
  after_results
  all_goals rfl

theorem read_v50_W14 : W14 m ρ c (Proc.devRef .tc main_v50) = (dat3 (V13 m ρ) c).arrAt 2 cfg3.N := W14_arr m ρ c 2

theorem read_v57_W15 : W15 m ρ c (Proc.devRef .tc main_v57) = gatherK (W14 m ρ c (Proc.devRef .tc main_v49)) (W14 m ρ c (Proc.devRef .tc main_v24)) := by
  show StableHlo.after hostOps4 (W14 m ρ c) (Proc.devRef .tc main_v57) = gatherK (W14 m ρ c (Proc.devRef .tc main_v49)) (W14 m ρ c (Proc.devRef .tc main_v24))
  dsimp only [hostOps4]
  after_results
  all_goals rfl

theorem read_v58_W16 : W16 m ρ c (Proc.devRef .tc main_v58) = (dat4 (V15 m ρ) c).arrAt 2 cfg4.N := W16_arr m ρ c 2

theorem read_v61_W17 : W17 m ρ c (Proc.devRef .tc main_v61) = scatterK (W16 m ρ c (Proc.devRef .tc main_v25)) (W16 m ρ c (Proc.devRef .tc main_v58)) := by
  show StableHlo.after hostOps5 (W16 m ρ c) (Proc.devRef .tc main_v61) = scatterK (W16 m ρ c (Proc.devRef .tc main_v25)) (W16 m ρ c (Proc.devRef .tc main_v58))
  dsimp only [hostOps5]
  after_results
  all_goals rfl

theorem read_v62_W18 : W18 m ρ c (Proc.devRef .tc main_v62) = (dat5 (V17 m ρ) c).arrAt 2 cfg5.N := W18_arr m ρ c 2

theorem read_v63_W19 : W19 m ρ c (Proc.devRef .tc main_v63) = (dat6 (V18 m ρ) c).arrAt 1 cfg6.N := W19_arr m ρ c 1

theorem read_v64_W20 : W20 m ρ c (Proc.devRef .tc main_v64) = extractStridedSlice S200000x64 ![0, 0] (W19 m ρ c (Proc.devRef .tc main_v63)) slices_S300000x64_S200000x64_0_0 := by
  show StableHlo.after hostOps7 (W19 m ρ c) (Proc.devRef .tc main_v64) = extractStridedSlice S200000x64 ![0, 0] (W19 m ρ c (Proc.devRef .tc main_v63)) slices_S300000x64_S200000x64_0_0
  dsimp only [hostOps7]
  after_results
  all_goals rfl

theorem read_v65_W20 : W20 m ρ c (Proc.devRef .tc main_v65) = extractStridedSlice S100000x64 ![200000, 0] (W19 m ρ c (Proc.devRef .tc main_v63)) slices_S300000x64_S100000x64_200000_0 := by
  show StableHlo.after hostOps7 (W19 m ρ c) (Proc.devRef .tc main_v65) = extractStridedSlice S100000x64 ![200000, 0] (W19 m ρ c (Proc.devRef .tc main_v63)) slices_S300000x64_S100000x64_200000_0
  dsimp only [hostOps7]
  after_results
  all_goals rfl

end Cert.KernelIdeal.Walk

end
-- ==== Proof.KernelArith.lean ====
/-
  The three regions' bodies of the idealized kernel program as whole-array functions over the extended reals: every
  row of per-edge values scaled by that edge's weight, the sum of two node tables, and a node table scaled by the
  word 0x3E800000 (one quarter).
-/
import proofs.«113974_j89670327206250_2_alg».proof.KernelIdeal
import Idealize.ShloMosaic.PureOps.Ideal
import Idealize.ShloMosaic.Lib.ValueIdx

noncomputable section

namespace Cert.KernelIdeal.Walk

open Cert.KernelIdeal Idealize.ShloMosaic Idealize.ShloMosaic.ValueIdx

/-- Entry `(e, k)` is `g (e, k) · w (e, 0)`. -/
def mulRows (g : FVec Ideal S4001792x64 .f32) (w : FVec Ideal S4001792x1 .f32) : FVec Ideal S4001792x64 .f32 :=
  fun i => g i * w (ix2 (⟨(i 0).val, idx2_lt0 i⟩ : Fin 4001792) (0 : Fin 1))

/-- Entry by entry, `a + b`. -/
def addRows (a b : FVec Ideal S300000x64 .f32) : FVec Ideal S300000x64 .f32 := fun i => a i + b i

/-- Entry by entry, `a` times the word 0x3E800000. -/
def scaleQ (a : FVec Ideal S300000x64 .f32) : FVec Ideal S300000x64 .f32 := fun i => a i * Ideal.ofBits .f32 0x3E800000#32

end Cert.KernelIdeal.Walk

end
-- ==== Proof.KernelStep.lean ====
/-
  One propagation step of the idealized kernel program as a function of the node table: gather the rows at the
  padded target indices, scale row `e` by the padded weight `w' e`, scatter-add the rows at the padded source indices.
-/
import proofs.«113974_j89670327206250_2_alg».proof.Proof.KernelOps
import proofs.«113974_j89670327206250_2_alg».proof.Proof.KernelArith

noncomputable section

namespace Cert.KernelIdeal.Walk

open Cert.KernelIdeal Idealize.ShloMosaic

/-- `h ↦ scatter-add over the padded source indices of (the rows of h at the padded target indices, each times its weight)`. -/
def stepK (a2' a3' : IVec S4001792 32) (w' : FVec Ideal S4001792x1 .f32) (h : FVec Ideal S300000x64 .f32) : FVec Ideal S300000x64 .f32 :=
  scatterK a2' (mulRows (gatherK h a3') w')

/-- The idealized kernel's node table before the row slices: the quarter of `x + A x + A (A x) + A (A (A x))`, `A` the step. -/
def outK (a2' a3' : IVec S4001792 32) (w' : FVec Ideal S4001792x1 .f32) (x : FVec Ideal S300000x64 .f32) : FVec Ideal S300000x64 .f32 :=
  scaleQ (addRows (addRows (addRows x (stepK a2' a3' w' x)) (stepK a2' a3' w' (stepK a2' a3' w' x)))
    (stepK a2' a3' w' (stepK a2' a3' w' (stepK a2' a3' w' x))))

end Cert.KernelIdeal.Walk

end
-- ==== Proof.RegionFinalsMul.lean ====
import proofs.«113974_j89670327206250_2_alg».proof.Proof.Gen.KernelIdeal.Frame
import Idealize.ShloMosaic.Lib.Pipeline.Value
import Idealize.ShloMosaic.Lib.ValueIdx
import Idealize.ShloMosaic.PureOps.Ideal

/-! # The weighted-product regions as whole-array functions

Each of the three regions multiplies a [4001792, 64] array, row by row, by the one weight of that row
(a [4001792, 1] array broadcast along the 64 lanes), in 977 blocks of 4096 rows.  Block t of every
window starts at row 4096 * t, so the elements the body reads for output element (r, l) are (r, l) of the
first operand and (r, 0) of the weights; the 977 blocks tile the rows, so the output array after the last
point is the product everywhere. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem hz : (![0, 0] : Fin 2 → Nat) = fun _ => 0 := funext fun a => by fin_cases a <;> rfl

/-- The row-weighted product: element (r, l) of a times the weight of row r. -/
abbrev mulG (a : S4001792x64.Idx → EReal) (w : S4001792x1.Idx → EReal) : S4001792x64.Idx → EReal :=
  fun i => a i * w (ix2 ⟨(i 0).val, idx2_lt0 i⟩ (0 : Fin 1))

/-- The weight column broadcast along the lanes, read at (r, l), is the weight at (r, 0). -/
theorem bcast_apply (x1 : Vec Ideal S4096x1 .f32) (y : S4096x64.Idx) :
    broadcastTo S4096x64 x1 broadcasts_S4096x1_S4096x64 y = x1 (ix2 ⟨(y 0).val, idx2_lt0 y⟩ (0 : Fin 1)) :=
  broadcastTo_apply x1 broadcasts_S4096x1_S4096x64 y (ix2 ⟨(y 0).val, idx2_lt0 y⟩ (0 : Fin 1)) fun a => by
    match a with
    | ⟨0, _⟩ => rfl
    | ⟨1, _⟩ => rfl

/-- Reading both factors at equal indices gives equal products. -/
theorem mul_congr_idx (a : S4001792x64.Idx → EReal) (w : S4001792x1.Idx → EReal) {i i' : S4001792x64.Idx}
    {k k' : S4001792x1.Idx} (hi : i = i') (hk : k = k') : a i * w k = a i' * w k' := by rw [hi, hk]

/-! ## Region 0 -/

/-- Region 0's payload at an index of the block. -/
theorem pay0_apply (x0 : Vec Ideal S4096x64 .f32) (x1 : Vec Ideal S4096x1 .f32) (y : S4096x64.Idx) :
    k0_pay1 x0 x1 y = x0 y * x1 (ix2 ⟨(y 0).val, idx2_lt0 y⟩ (0 : Fin 1)) := by
  unfold k0_pay1
  simp only [shapeCast_self]
  exact (mulf_apply _ _ y).trans (congrArg (x0 y * ·) (bcast_apply x1 y))

/-- The printed index maps of region 0, decided over the 977 points: block t of each window is block row t,
    block column 0. -/
theorem idx_facts0 : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0 :=
  (by decide +kernel : ∀ t : Fin grid0.N, _)

/-- WHAT POINT t WRITES BACK in region 0 is block t of the row-weighted product of the operand arrays as the
    region finds them: the block of every window at point t starts at row 4096 * t. -/
theorem flushed0_eq (c : Dev nD) (t : Fin cfg0.N) :
    (dat0 V c).flushed 2 t = ((cfg0.win 2).blk t).view.read (Elt Ideal) (mulG (V c main_v33) (V c main_v26)) := by
  show (cfg0.win 2).cut (grid0.coords t) ((dat0 V c).after 2 t) = _
  rw [after0_2]
  unfold out0_2
  rw [View.canon_unit_zero hz]
  simp only [View.ld_unit_zero (S := S4096x64) hz, View.ld_unit_zero (S := S4096x1) hz]
  obtain ⟨e0, e1, e2, e3, e4, e5⟩ := idx_facts0 t
  funext j
  have hj0 : (j 0).val < 4096 := (j 0).isLt
  have hj1 : (j 1).val < 64 := (j 1).isLt
  have h0 : ((cfg0.win 0).blk t).view.emb j = ((cfg0.win 2).blk t).view.emb j := by
    funext a; apply Fin.ext
    match a with
    | ⟨0, _⟩ => show win0_0.index t (0 : Fin 2) * 4096 + 1 * (j 0).val = win0_2.index t (0 : Fin 2) * 4096 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (ix2 (n0 := 4096) (n1 := 1) ⟨(j 0).val, hj0⟩ (0 : Fin 1))
      = ix2 (n0 := 4001792) (n1 := 1) ⟨((((cfg0.win 2).blk t).view.emb j) 0).val,
          idx2_lt0 (n0 := 4001792) (n1 := 64) (((cfg0.win 2).blk t).view.emb j)⟩ (0 : Fin 1) := by
    funext a; apply Fin.ext
    match a with
    | ⟨0, _⟩ => show win0_1.index t (0 : Fin 2) * 4096 + 1 * (j 0).val = win0_2.index t (0 : Fin 2) * 4096 + 1 * (j 0).val; omega
    | ⟨1, _⟩ => show win0_1.index t (1 : Fin 2) * 1 + 1 * 0 = 0; omega
  refine (pay0_apply _ _ _).trans ?_
  exact mul_congr_idx (V c main_v33) (V c main_v26) h0 h1

/-- An index of the output array is in point t's block iff each coordinate is in the block's range on its axis. -/
theorem mem_blk0 (t : Fin cfg0.N) (i : S4001792x64.Idx) :
    i ∈ ((cfg0.win 2).blk t).view.set ↔ ∀ a : Fin 2, win0_2.index t a * S4096x64.size a ≤ (i a).val ∧ (i a).val < win0_2.index t a * S4096x64.size a + S4096x64.size a := by
  show i ∈ ((View.whole main_v34).slice (win0_2.rect t)).set ↔ _
  rw [View.set_slice_whole, Rect.mem_set_unit]
  exact Iff.rfl

/-- The 977 blocks of 4096 rows tile the 4001792 rows: row r is in the block of point r / 4096. -/
theorem cover0 (i : S4001792x64.Idx) :
    ∃ t : Fin cfg0.N, (cfg0.win 2).flush t = true ∧ i ∈ ((cfg0.win 2).blk t).view.set := by
  have hi0 : (i 0).val < 4001792 := (i 0).isLt
  have hi1 : (i 1).val < 64 := (i 1).isLt
  have hN : cfg0.N = 977 := by decide
  have ht : (i 0).val / 4096 < cfg0.N := by rw [hN]; omega
  obtain ⟨-, -, -, -, e4, e5⟩ := idx_facts0 ⟨(i 0).val / 4096, ht⟩
  have e4' : win0_2.index ⟨(i 0).val / 4096, ht⟩ (0 : Fin 2) = (i 0).val / 4096 := e4
  refine ⟨⟨(i 0).val / 4096, ht⟩, flush0_2 _, ?_⟩
  rw [mem_blk0]
  intro a
  match a with
  | ⟨0, _⟩ =>
    show win0_2.index ⟨(i 0).val / 4096, ht⟩ (0 : Fin 2) * 4096 ≤ (i 0).val ∧ (i 0).val < win0_2.index ⟨(i 0).val / 4096, ht⟩ (0 : Fin 2) * 4096 + 4096
    omega
  | ⟨1, _⟩ =>
    show win0_2.index ⟨(i 0).val / 4096, ht⟩ (1 : Fin 2) * 64 ≤ (i 1).val ∧ (i 1).val < win0_2.index ⟨(i 0).val / 4096, ht⟩ (1 : Fin 2) * 64 + 64
    omega

/-- THE OUTPUT ARRAY of region 0 after all its points: the row-weighted product of the operand arrays as the
    region finds them. -/
theorem final0 (c : Dev nD) :
    (dat0 V c).arrAt 2 cfg0.N = mulG (V c main_v33) (V c main_v26) :=
  (dat0 V c).arrAt_eq_of_cover 2 (mulG (V c main_v33) (V c main_v26)) (fun t _ => flushed0_eq V c t) cover0

/-! ## Region 2 -/

/-- Region 2's payload at an index of the block. -/
theorem pay2_apply (x0 : Vec Ideal S4096x64 .f32) (x1 : Vec Ideal S4096x1 .f32) (y : S4096x64.Idx) :
    k2_pay1 x0 x1 y = x0 y * x1 (ix2 ⟨(y 0).val, idx2_lt0 y⟩ (0 : Fin 1)) := by
  unfold k2_pay1
  simp only [shapeCast_self]
  exact (mulf_apply _ _ y).trans (congrArg (x0 y * ·) (bcast_apply x1 y))

/-- The printed index maps of region 2, decided over the 977 points: block t of each window is block row t,
    block column 0. -/
theorem idx_facts2 : ∀ t : Fin cfg2.N, win2_0.index t (0 : Fin 2) = t.val ∧ win2_0.index t (1 : Fin 2) = 0
    ∧ win2_1.index t (0 : Fin 2) = t.val ∧ win2_1.index t (1 : Fin 2) = 0
    ∧ win2_2.index t (0 : Fin 2) = t.val ∧ win2_2.index t (1 : Fin 2) = 0 :=
  (by decide +kernel : ∀ t : Fin grid2.N, _)

/-- WHAT POINT t WRITES BACK in region 2 is block t of the row-weighted product of the operand arrays as the
    region finds them: the block of every window at point t starts at row 4096 * t. -/
theorem flushed2_eq (c : Dev nD) (t : Fin cfg2.N) :
    (dat2 V c).flushed 2 t = ((cfg2.win 2).blk t).view.read (Elt Ideal) (mulG (V c main_v45) (V c main_v26)) := by
  show (cfg2.win 2).cut (grid2.coords t) ((dat2 V c).after 2 t) = _
  rw [after2_2]
  unfold out2_2
  rw [View.canon_unit_zero hz]
  simp only [View.ld_unit_zero (S := S4096x64) hz, View.ld_unit_zero (S := S4096x1) hz]
  obtain ⟨e0, e1, e2, e3, e4, e5⟩ := idx_facts2 t
  funext j
  have hj0 : (j 0).val < 4096 := (j 0).isLt
  have hj1 : (j 1).val < 64 := (j 1).isLt
  have h0 : ((cfg2.win 0).blk t).view.emb j = ((cfg2.win 2).blk t).view.emb j := by
    funext a; apply Fin.ext
    match a with
    | ⟨0, _⟩ => show win2_0.index t (0 : Fin 2) * 4096 + 1 * (j 0).val = win2_2.index t (0 : Fin 2) * 4096 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (ix2 (n0 := 4096) (n1 := 1) ⟨(j 0).val, hj0⟩ (0 : Fin 1))
      = ix2 (n0 := 4001792) (n1 := 1) ⟨((((cfg2.win 2).blk t).view.emb j) 0).val,
          idx2_lt0 (n0 := 4001792) (n1 := 64) (((cfg2.win 2).blk t).view.emb j)⟩ (0 : Fin 1) := by
    funext a; apply Fin.ext
    match a with
    | ⟨0, _⟩ => show win2_1.index t (0 : Fin 2) * 4096 + 1 * (j 0).val = win2_2.index t (0 : Fin 2) * 4096 + 1 * (j 0).val; omega
    | ⟨1, _⟩ => show win2_1.index t (1 : Fin 2) * 1 + 1 * 0 = 0; omega
  refine (pay2_apply _ _ _).trans ?_
  exact mul_congr_idx (V c main_v45) (V c main_v26) h0 h1

/-- An index of the output array is in point t's block iff each coordinate is in the block's range on its axis. -/
theorem mem_blk2 (t : Fin cfg2.N) (i : S4001792x64.Idx) :
    i ∈ ((cfg2.win 2).blk t).view.set ↔ ∀ a : Fin 2, win2_2.index t a * S4096x64.size a ≤ (i a).val ∧ (i a).val < win2_2.index t a * S4096x64.size a + S4096x64.size a := by
  show i ∈ ((View.whole main_v46).slice (win2_2.rect t)).set ↔ _
  rw [View.set_slice_whole, Rect.mem_set_unit]
  exact Iff.rfl

/-- The 977 blocks of 4096 rows tile the 4001792 rows: row r is in the block of point r / 4096. -/
theorem cover2 (i : S4001792x64.Idx) :
    ∃ t : Fin cfg2.N, (cfg2.win 2).flush t = true ∧ i ∈ ((cfg2.win 2).blk t).view.set := by
  have hi0 : (i 0).val < 4001792 := (i 0).isLt
  have hi1 : (i 1).val < 64 := (i 1).isLt
  have hN : cfg2.N = 977 := by decide
  have ht : (i 0).val / 4096 < cfg2.N := by rw [hN]; omega
  obtain ⟨-, -, -, -, e4, e5⟩ := idx_facts2 ⟨(i 0).val / 4096, ht⟩
  have e4' : win2_2.index ⟨(i 0).val / 4096, ht⟩ (0 : Fin 2) = (i 0).val / 4096 := e4
  refine ⟨⟨(i 0).val / 4096, ht⟩, flush2_2 _, ?_⟩
  rw [mem_blk2]
  intro a
  match a with
  | ⟨0, _⟩ =>
    show win2_2.index ⟨(i 0).val / 4096, ht⟩ (0 : Fin 2) * 4096 ≤ (i 0).val ∧ (i 0).val < win2_2.index ⟨(i 0).val / 4096, ht⟩ (0 : Fin 2) * 4096 + 4096
    omega
  | ⟨1, _⟩ =>
    show win2_2.index ⟨(i 0).val / 4096, ht⟩ (1 : Fin 2) * 64 ≤ (i 1).val ∧ (i 1).val < win2_2.index ⟨(i 0).val / 4096, ht⟩ (1 : Fin 2) * 64 + 64
    omega

/-- THE OUTPUT ARRAY of region 2 after all its points: the row-weighted product of the operand arrays as the
    region finds them. -/
theorem final2 (c : Dev nD) :
    (dat2 V c).arrAt 2 cfg2.N = mulG (V c main_v45) (V c main_v26) :=
  (dat2 V c).arrAt_eq_of_cover 2 (mulG (V c main_v45) (V c main_v26)) (fun t _ => flushed2_eq V c t) cover2

/-! ## Region 4 -/

/-- Region 4's payload at an index of the block. -/
theorem pay4_apply (x0 : Vec Ideal S4096x64 .f32) (x1 : Vec Ideal S4096x1 .f32) (y : S4096x64.Idx) :
    k4_pay1 x0 x1 y = x0 y * x1 (ix2 ⟨(y 0).val, idx2_lt0 y⟩ (0 : Fin 1)) := by
  unfold k4_pay1
  simp only [shapeCast_self]
  exact (mulf_apply _ _ y).trans (congrArg (x0 y * ·) (bcast_apply x1 y))

/-- The printed index maps of region 4, decided over the 977 points: block t of each window is block row t,
    block column 0. -/
theorem idx_facts4 : ∀ t : Fin cfg4.N, win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 :=
  (by decide +kernel : ∀ t : Fin grid4.N, _)

/-- WHAT POINT t WRITES BACK in region 4 is block t of the row-weighted product of the operand arrays as the
    region finds them: the block of every window at point t starts at row 4096 * t. -/
theorem flushed4_eq (c : Dev nD) (t : Fin cfg4.N) :
    (dat4 V c).flushed 2 t = ((cfg4.win 2).blk t).view.read (Elt Ideal) (mulG (V c main_v57) (V c main_v26)) := by
  show (cfg4.win 2).cut (grid4.coords t) ((dat4 V c).after 2 t) = _
  rw [after4_2]
  unfold out4_2
  rw [View.canon_unit_zero hz]
  simp only [View.ld_unit_zero (S := S4096x64) hz, View.ld_unit_zero (S := S4096x1) hz]
  obtain ⟨e0, e1, e2, e3, e4, e5⟩ := idx_facts4 t
  funext j
  have hj0 : (j 0).val < 4096 := (j 0).isLt
  have hj1 : (j 1).val < 64 := (j 1).isLt
  have h0 : ((cfg4.win 0).blk t).view.emb j = ((cfg4.win 2).blk t).view.emb j := by
    funext a; apply Fin.ext
    match a with
    | ⟨0, _⟩ => show win4_0.index t (0 : Fin 2) * 4096 + 1 * (j 0).val = win4_2.index t (0 : Fin 2) * 4096 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (ix2 (n0 := 4096) (n1 := 1) ⟨(j 0).val, hj0⟩ (0 : Fin 1))
      = ix2 (n0 := 4001792) (n1 := 1) ⟨((((cfg4.win 2).blk t).view.emb j) 0).val,
          idx2_lt0 (n0 := 4001792) (n1 := 64) (((cfg4.win 2).blk t).view.emb j)⟩ (0 : Fin 1) := by
    funext a; apply Fin.ext
    match a with
    | ⟨0, _⟩ => show win4_1.index t (0 : Fin 2) * 4096 + 1 * (j 0).val = win4_2.index t (0 : Fin 2) * 4096 + 1 * (j 0).val; omega
    | ⟨1, _⟩ => show win4_1.index t (1 : Fin 2) * 1 + 1 * 0 = 0; omega
  refine (pay4_apply _ _ _).trans ?_
  exact mul_congr_idx (V c main_v57) (V c main_v26) h0 h1

/-- An index of the output array is in point t's block iff each coordinate is in the block's range on its axis. -/
theorem mem_blk4 (t : Fin cfg4.N) (i : S4001792x64.Idx) :
    i ∈ ((cfg4.win 2).blk t).view.set ↔ ∀ a : Fin 2, win4_2.index t a * S4096x64.size a ≤ (i a).val ∧ (i a).val < win4_2.index t a * S4096x64.size a + S4096x64.size a := by
  show i ∈ ((View.whole main_v58).slice (win4_2.rect t)).set ↔ _
  rw [View.set_slice_whole, Rect.mem_set_unit]
  exact Iff.rfl

/-- The 977 blocks of 4096 rows tile the 4001792 rows: row r is in the block of point r / 4096. -/
theorem cover4 (i : S4001792x64.Idx) :
    ∃ t : Fin cfg4.N, (cfg4.win 2).flush t = true ∧ i ∈ ((cfg4.win 2).blk t).view.set := by
  have hi0 : (i 0).val < 4001792 := (i 0).isLt
  have hi1 : (i 1).val < 64 := (i 1).isLt
  have hN : cfg4.N = 977 := by decide
  have ht : (i 0).val / 4096 < cfg4.N := by rw [hN]; omega
  obtain ⟨-, -, -, -, e4, e5⟩ := idx_facts4 ⟨(i 0).val / 4096, ht⟩
  have e4' : win4_2.index ⟨(i 0).val / 4096, ht⟩ (0 : Fin 2) = (i 0).val / 4096 := e4
  refine ⟨⟨(i 0).val / 4096, ht⟩, flush4_2 _, ?_⟩
  rw [mem_blk4]
  intro a
  match a with
  | ⟨0, _⟩ =>
    show win4_2.index ⟨(i 0).val / 4096, ht⟩ (0 : Fin 2) * 4096 ≤ (i 0).val ∧ (i 0).val < win4_2.index ⟨(i 0).val / 4096, ht⟩ (0 : Fin 2) * 4096 + 4096
    omega
  | ⟨1, _⟩ =>
    show win4_2.index ⟨(i 0).val / 4096, ht⟩ (1 : Fin 2) * 64 ≤ (i 1).val ∧ (i 1).val < win4_2.index ⟨(i 0).val / 4096, ht⟩ (1 : Fin 2) * 64 + 64
    omega

/-- THE OUTPUT ARRAY of region 4 after all its points: the row-weighted product of the operand arrays as the
    region finds them. -/
theorem final4 (c : Dev nD) :
    (dat4 V c).arrAt 2 cfg4.N = mulG (V c main_v57) (V c main_v26) :=
  (dat4 V c).arrAt_eq_of_cover 2 (mulG (V c main_v57) (V c main_v26)) (fun t _ => flushed4_eq V c t) cover4

end Cert.KernelIdeal.RegionValue

end
-- ==== Proof.RegionFinalsAdd.lean ====
import proofs.«113974_j89670327206250_2_alg».proof.Proof.Gen.KernelIdeal.Frame
import Idealize.ShloMosaic.Lib.Pipeline.Value
import Idealize.ShloMosaic.Lib.ValueIdx
import Idealize.ShloMosaic.PureOps.Ideal

/-! # The sum regions as whole-array functions

Each of the three regions adds two [300000, 64] arrays element by element, in 60 blocks of 5000 rows.  Block t
of every window starts at row 5000 * t, so the elements the body reads for output element (r, l) are (r, l) of
both operands; the 60 blocks tile the rows, so the output array after the last point is the sum everywhere. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem hzA : (![0, 0] : Fin 2 → Nat) = fun _ => 0 := funext fun a => by fin_cases a <;> rfl

/-- The elementwise sum of two arrays. -/
abbrev addG (a b : S300000x64.Idx → EReal) : S300000x64.Idx → EReal := fun i => a i + b i

/-- Reading both summands at equal indices gives equal sums. -/
theorem add_congr_idx (a b : S300000x64.Idx → EReal) {i i' k k' : S300000x64.Idx} (hi : i = i') (hk : k = k') :
    a i + b k = a i' + b k' := by rw [hi, hk]

/-! ## Region 1 -/

/-- Region 1's payload at an index of the block. -/
theorem pay1_apply (x0 x1 : Vec Ideal S5000x64 .f32) (y : S5000x64.Idx) : k1_pay1 x0 x1 y = x0 y + x1 y := by
  unfold k1_pay1
  simp only [shapeCast_self]
  exact addf_apply _ _ y

/-- The printed index maps of region 1, decided over the 60 points: block t of each window is block row t,
    block column 0. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- WHAT POINT t WRITES BACK in region 1 is block t of the sum of the operand arrays as the region finds them:
    the block of every window at point t starts at row 5000 * t. -/
theorem flushed1_eq (c : Dev nD) (t : Fin cfg1.N) :
    (dat1 V c).flushed 2 t = ((cfg1.win 2).blk t).view.read (Elt Ideal) (addG (V c main_v0) (V c main_v37)) := by
  show (cfg1.win 2).cut (grid1.coords t) ((dat1 V c).after 2 t) = _
  rw [after1_2]
  unfold out1_2
  rw [View.canon_unit_zero hzA]
  simp only [View.ld_unit_zero (S := S5000x64) hzA]
  obtain ⟨e0, e1, e2, e3, e4, e5⟩ := idx_facts1 t
  funext j
  have hj0 : (j 0).val < 5000 := (j 0).isLt
  have hj1 : (j 1).val < 64 := (j 1).isLt
  have h0 : ((cfg1.win 0).blk t).view.emb j = ((cfg1.win 2).blk t).view.emb j := by
    funext a; apply Fin.ext
    match a with
    | ⟨0, _⟩ => show win1_0.index t (0 : Fin 2) * 5000 + 1 * (j 0).val = win1_2.index t (0 : Fin 2) * 5000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb j = ((cfg1.win 2).blk t).view.emb j := by
    funext a; apply Fin.ext
    match a with
    | ⟨0, _⟩ => show win1_1.index t (0 : Fin 2) * 5000 + 1 * (j 0).val = win1_2.index t (0 : Fin 2) * 5000 + 1 * (j 0).val; omega
    | ⟨1, _⟩ => show win1_1.index t (1 : Fin 2) * 64 + 1 * (j 1).val = win1_2.index t (1 : Fin 2) * 64 + 1 * (j 1).val; omega
  refine (pay1_apply _ _ _).trans ?_
  exact add_congr_idx (V c main_v0) (V c main_v37) h0 h1

/-- An index of the output array is in point t's block iff each coordinate is in the block's range on its axis. -/
theorem mem_blk1 (t : Fin cfg1.N) (i : S300000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v38).slice (win1_2.rect t)).set ↔ _
  rw [View.set_slice_whole, Rect.mem_set_unit]
  exact Iff.rfl

/-- The 60 blocks of 5000 rows tile the 300000 rows: row r is in the block of point r / 5000. -/
theorem cover1 (i : S300000x64.Idx) :
    ∃ t : Fin cfg1.N, (cfg1.win 2).flush t = true ∧ i ∈ ((cfg1.win 2).blk t).view.set := by
  have hi0 : (i 0).val < 300000 := (i 0).isLt
  have hi1 : (i 1).val < 64 := (i 1).isLt
  have hN : cfg1.N = 60 := by decide
  have ht : (i 0).val / 5000 < cfg1.N := by rw [hN]; omega
  obtain ⟨-, -, -, -, e4, e5⟩ := idx_facts1 ⟨(i 0).val / 5000, ht⟩
  have e4' : win1_2.index ⟨(i 0).val / 5000, ht⟩ (0 : Fin 2) = (i 0).val / 5000 := e4
  refine ⟨⟨(i 0).val / 5000, ht⟩, flush1_2 _, ?_⟩
  rw [mem_blk1]
  intro a
  match a with
  | ⟨0, _⟩ =>
    show win1_2.index ⟨(i 0).val / 5000, ht⟩ (0 : Fin 2) * 5000 ≤ (i 0).val ∧ (i 0).val < win1_2.index ⟨(i 0).val / 5000, ht⟩ (0 : Fin 2) * 5000 + 5000
    omega
  | ⟨1, _⟩ =>
    show win1_2.index ⟨(i 0).val / 5000, ht⟩ (1 : Fin 2) * 64 ≤ (i 1).val ∧ (i 1).val < win1_2.index ⟨(i 0).val / 5000, ht⟩ (1 : Fin 2) * 64 + 64
    omega

/-- THE OUTPUT ARRAY of region 1 after all its points: the sum of the operand arrays as the region finds them. -/
theorem final1 (c : Dev nD) :
    (dat1 V c).arrAt 2 cfg1.N = addG (V c main_v0) (V c main_v37) :=
  (dat1 V c).arrAt_eq_of_cover 2 (addG (V c main_v0) (V c main_v37)) (fun t _ => flushed1_eq V c t) cover1

/-! ## Region 3 -/

/-- Region 3's payload at an index of the block. -/
theorem pay3_apply (x0 x1 : Vec Ideal S5000x64 .f32) (y : S5000x64.Idx) : k3_pay1 x0 x1 y = x0 y + x1 y := by
  unfold k3_pay1
  simp only [shapeCast_self]
  exact addf_apply _ _ y

/-- The printed index maps of region 3, decided over the 60 points: block t of each window is block row t,
    block column 0. -/
theorem idx_facts3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0 :=
  (by decide +kernel : ∀ t : Fin grid3.N, _)

/-- WHAT POINT t WRITES BACK in region 3 is block t of the sum of the operand arrays as the region finds them:
    the block of every window at point t starts at row 5000 * t. -/
theorem flushed3_eq (c : Dev nD) (t : Fin cfg3.N) :
    (dat3 V c).flushed 2 t = ((cfg3.win 2).blk t).view.read (Elt Ideal) (addG (V c main_v38) (V c main_v49)) := by
  show (cfg3.win 2).cut (grid3.coords t) ((dat3 V c).after 2 t) = _
  rw [after3_2]
  unfold out3_2
  rw [View.canon_unit_zero hzA]
  simp only [View.ld_unit_zero (S := S5000x64) hzA]
  obtain ⟨e0, e1, e2, e3, e4, e5⟩ := idx_facts3 t
  funext j
  have hj0 : (j 0).val < 5000 := (j 0).isLt
  have hj1 : (j 1).val < 64 := (j 1).isLt
  have h0 : ((cfg3.win 0).blk t).view.emb j = ((cfg3.win 2).blk t).view.emb j := by
    funext a; apply Fin.ext
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * (j 1).val = win3_2.index t (1 : Fin 2) * 64 + 1 * (j 1).val; omega
  have h1 : ((cfg3.win 1).blk t).view.emb j = ((cfg3.win 2).blk t).view.emb j := by
    funext a; apply Fin.ext
    match a with
    | ⟨0, _⟩ => show win3_1.index t (0 : Fin 2) * 5000 + 1 * (j 0).val = win3_2.index t (0 : Fin 2) * 5000 + 1 * (j 0).val; omega
    | ⟨1, _⟩ => show win3_1.index t (1 : Fin 2) * 64 + 1 * (j 1).val = win3_2.index t (1 : Fin 2) * 64 + 1 * (j 1).val; omega
  refine (pay3_apply _ _ _).trans ?_
  exact add_congr_idx (V c main_v38) (V c main_v49) h0 h1

/-- An index of the output array is in point t's block iff each coordinate is in the block's range on its axis. -/
theorem mem_blk3 (t : Fin cfg3.N) (i : S300000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v50).slice (win3_2.rect t)).set ↔ _
  rw [View.set_slice_whole, Rect.mem_set_unit]
  exact Iff.rfl

/-- The 60 blocks of 5000 rows tile the 300000 rows: row r is in the block of point r / 5000. -/
theorem cover3 (i : S300000x64.Idx) :
    ∃ t : Fin cfg3.N, (cfg3.win 2).flush t = true ∧ i ∈ ((cfg3.win 2).blk t).view.set := by
  have hi0 : (i 0).val < 300000 := (i 0).isLt
  have hi1 : (i 1).val < 64 := (i 1).isLt
  have hN : cfg3.N = 60 := by decide
  have ht : (i 0).val / 5000 < cfg3.N := by rw [hN]; omega
  obtain ⟨-, -, -, -, e4, e5⟩ := idx_facts3 ⟨(i 0).val / 5000, ht⟩
  have e4' : win3_2.index ⟨(i 0).val / 5000, ht⟩ (0 : Fin 2) = (i 0).val / 5000 := e4
  refine ⟨⟨(i 0).val / 5000, ht⟩, flush3_2 _, ?_⟩
  rw [mem_blk3]
  intro a
  match a with
  | ⟨0, _⟩ =>
    show win3_2.index ⟨(i 0).val / 5000, ht⟩ (0 : Fin 2) * 5000 ≤ (i 0).val ∧ (i 0).val < win3_2.index ⟨(i 0).val / 5000, ht⟩ (0 : Fin 2) * 5000 + 5000
    omega
  | ⟨1, _⟩ =>
    show win3_2.index ⟨(i 0).val / 5000, ht⟩ (1 : Fin 2) * 64 ≤ (i 1).val ∧ (i 1).val < win3_2.index ⟨(i 0).val / 5000, ht⟩ (1 : Fin 2) * 64 + 64
    omega

/-- THE OUTPUT ARRAY of region 3 after all its points: the sum of the operand arrays as the region finds them. -/
theorem final3 (c : Dev nD) :
    (dat3 V c).arrAt 2 cfg3.N = addG (V c main_v38) (V c main_v49) :=
  (dat3 V c).arrAt_eq_of_cover 2 (addG (V c main_v38) (V c main_v49)) (fun t _ => flushed3_eq V c t) cover3

/-! ## Region 5 -/

/-- Region 5's payload at an index of the block. -/
theorem pay5_apply (x0 x1 : Vec Ideal S5000x64 .f32) (y : S5000x64.Idx) : k5_pay1 x0 x1 y = x0 y + x1 y := by
  unfold k5_pay1
  simp only [shapeCast_self]
  exact addf_apply _ _ y

/-- The printed index maps of region 5, decided over the 60 points: block t of each window is block row t,
    block column 0. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0 :=
  (by decide +kernel : ∀ t : Fin grid5.N, _)

/-- WHAT POINT t WRITES BACK in region 5 is block t of the sum of the operand arrays as the region finds them:
    the block of every window at point t starts at row 5000 * t. -/
theorem flushed5_eq (c : Dev nD) (t : Fin cfg5.N) :
    (dat5 V c).flushed 2 t = ((cfg5.win 2).blk t).view.read (Elt Ideal) (addG (V c main_v50) (V c main_v61)) := by
  show (cfg5.win 2).cut (grid5.coords t) ((dat5 V c).after 2 t) = _
  rw [after5_2]
  unfold out5_2
  rw [View.canon_unit_zero hzA]
  simp only [View.ld_unit_zero (S := S5000x64) hzA]
  obtain ⟨e0, e1, e2, e3, e4, e5⟩ := idx_facts5 t
  funext j
  have hj0 : (j 0).val < 5000 := (j 0).isLt
  have hj1 : (j 1).val < 64 := (j 1).isLt
  have h0 : ((cfg5.win 0).blk t).view.emb j = ((cfg5.win 2).blk t).view.emb j := by
    funext a; apply Fin.ext
    match a with
    | ⟨0, _⟩ => show win5_0.index t (0 : Fin 2) * 5000 + 1 * (j 0).val = win5_2.index t (0 : Fin 2) * 5000 + 1 * (j 0).val; omega
    | ⟨1, _⟩ => show win5_0.index t (1 : Fin 2) * 64 + 1 * (j 1).val = win5_2.index t (1 : Fin 2) * 64 + 1 * (j 1).val; omega
  have h1 : ((cfg5.win 1).blk t).view.emb j = ((cfg5.win 2).blk t).view.emb j := by
    funext a; apply Fin.ext
    match a with
    | ⟨0, _⟩ => show win5_1.index t (0 : Fin 2) * 5000 + 1 * (j 0).val = win5_2.index t (0 : Fin 2) * 5000 + 1 * (j 0).val; omega
    | ⟨1, _⟩ => show win5_1.index t (1 : Fin 2) * 64 + 1 * (j 1).val = win5_2.index t (1 : Fin 2) * 64 + 1 * (j 1).val; omega
  refine (pay5_apply _ _ _).trans ?_
  exact add_congr_idx (V c main_v50) (V c main_v61) h0 h1

/-- An index of the output array is in point t's block iff each coordinate is in the block's range on its axis. -/
theorem mem_blk5 (t : Fin cfg5.N) (i : S300000x64.Idx) :
    i ∈ ((cfg5.win 2).blk t).view.set ↔ ∀ a : Fin 2, win5_2.index t a * S5000x64.size a ≤ (i a).val ∧ (i a).val < win5_2.index t a * S5000x64.size a + S5000x64.size a := by
  show i ∈ ((View.whole main_v62).slice (win5_2.rect t)).set ↔ _
  rw [View.set_slice_whole, Rect.mem_set_unit]
  exact Iff.rfl

/-- The 60 blocks of 5000 rows tile the 300000 rows: row r is in the block of point r / 5000. -/
theorem cover5 (i : S300000x64.Idx) :
    ∃ t : Fin cfg5.N, (cfg5.win 2).flush t = true ∧ i ∈ ((cfg5.win 2).blk t).view.set := by
  have hi0 : (i 0).val < 300000 := (i 0).isLt
  have hi1 : (i 1).val < 64 := (i 1).isLt
  have hN : cfg5.N = 60 := by decide
  have ht : (i 0).val / 5000 < cfg5.N := by rw [hN]; omega
  obtain ⟨-, -, -, -, e4, e5⟩ := idx_facts5 ⟨(i 0).val / 5000, ht⟩
  have e4' : win5_2.index ⟨(i 0).val / 5000, ht⟩ (0 : Fin 2) = (i 0).val / 5000 := e4
  refine ⟨⟨(i 0).val / 5000, ht⟩, flush5_2 _, ?_⟩
  rw [mem_blk5]
  intro a
  match a with
  | ⟨0, _⟩ =>
    show win5_2.index ⟨(i 0).val / 5000, ht⟩ (0 : Fin 2) * 5000 ≤ (i 0).val ∧ (i 0).val < win5_2.index ⟨(i 0).val / 5000, ht⟩ (0 : Fin 2) * 5000 + 5000
    omega
  | ⟨1, _⟩ =>
    show win5_2.index ⟨(i 0).val / 5000, ht⟩ (1 : Fin 2) * 64 ≤ (i 1).val ∧ (i 1).val < win5_2.index ⟨(i 0).val / 5000, ht⟩ (1 : Fin 2) * 64 + 64
    omega

/-- THE OUTPUT ARRAY of region 5 after all its points: the sum of the operand arrays as the region finds them. -/
theorem final5 (c : Dev nD) :
    (dat5 V c).arrAt 2 cfg5.N = addG (V c main_v50) (V c main_v61) :=
  (dat5 V c).arrAt_eq_of_cover 2 (addG (V c main_v50) (V c main_v61)) (fun t _ => flushed5_eq V c t) cover5

end Cert.KernelIdeal.RegionValue

end
-- ==== Proof.RegionFinalsScale.lean ====
import proofs.«113974_j89670327206250_2_alg».proof.Proof.Gen.KernelIdeal.Frame
import Idealize.ShloMosaic.Lib.Pipeline.Value
import Idealize.ShloMosaic.Lib.ValueIdx
import Idealize.ShloMosaic.PureOps.Ideal

/-! # The scaling region as a whole-array function

The region multiplies a [300000, 64] array element by element by one constant (the extended real the word
0x3E800000 denotes, kept symbolic), in 60 blocks of 5000 rows.  Block t of both windows starts at row 5000 * t,
so the element the body reads for output element (r, l) is (r, l) of the operand; the 60 blocks tile the rows, so
the output array after the last point is the scaled operand everywhere. -/

set_option maxRecDepth 16384

noncomputable section

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.ValueIdx

variable (V : (c : Dev nD) → (b : Ref sig .tc) → Buf (Elt Ideal) ((c : Thread nD τ).loc b))

/-- The zero offsets of a whole-buffer access, as the constant function. -/
theorem hzS : (![0, 0] : Fin 2 → Nat) = fun _ => 0 := funext fun a => by fin_cases a <;> rfl

/-- An array scaled element by element by the constant the word 0x3E800000 denotes. -/
abbrev scaleG (a : S300000x64.Idx → EReal) : S300000x64.Idx → EReal :=
  fun i => a i * Ideal.ofBits .f32 0x3E800000#32

/-- Reading the operand at equal indices gives equal scaled values. -/
theorem scale_congr_idx (a : S300000x64.Idx → EReal) {i i' : S300000x64.Idx} (hi : i = i') :
    a i * Ideal.ofBits .f32 0x3E800000#32 = a i' * Ideal.ofBits .f32 0x3E800000#32 := by rw [hi]

/-- The region's payload at an index of the block. -/
theorem pay6_apply (x0 : Vec Ideal S5000x64 .f32) (y : S5000x64.Idx) :
    k6_pay1 x0 y = x0 y * Ideal.ofBits .f32 0x3E800000#32 := by
  unfold k6_pay1
  simp only [shapeCast_self]
  exact mulf_apply _ _ y

/-- The printed index maps of the region, decided over the 60 points: block t of each window is block row t,
    block column 0. -/
theorem idx_facts6 : ∀ t : Fin cfg6.N, win6_0.index t (0 : Fin 2) = t.val ∧ win6_0.index t (1 : Fin 2) = 0
    ∧ win6_1.index t (0 : Fin 2) = t.val ∧ win6_1.index t (1 : Fin 2) = 0 :=
  (by decide +kernel : ∀ t : Fin grid6.N, _)

/-- WHAT POINT t WRITES BACK is block t of the scaled operand array as the region finds it: the block of both
    windows at point t starts at row 5000 * t. -/
theorem flushed6_eq (c : Dev nD) (t : Fin cfg6.N) :
    (dat6 V c).flushed 1 t = ((cfg6.win 1).blk t).view.read (Elt Ideal) (scaleG (V c main_v62)) := by
  show (cfg6.win 1).cut (grid6.coords t) ((dat6 V c).after 1 t) = _
  rw [after6_1]
  unfold out6_1
  rw [View.canon_unit_zero hzS]
  simp only [View.ld_unit_zero (S := S5000x64) hzS]
  obtain ⟨e0, e1, e2, e3⟩ := idx_facts6 t
  funext j
  have hj0 : (j 0).val < 5000 := (j 0).isLt
  have hj1 : (j 1).val < 64 := (j 1).isLt
  have h0 : ((cfg6.win 0).blk t).view.emb j = ((cfg6.win 1).blk t).view.emb j := by
    funext a; apply Fin.ext
    match a with
    | ⟨0, _⟩ => show win6_0.index t (0 : Fin 2) * 5000 + 1 * (j 0).val = win6_1.index t (0 : Fin 2) * 5000 + 1 * (j 0).val; omega
    | ⟨1, _⟩ => show win6_0.index t (1 : Fin 2) * 64 + 1 * (j 1).val = win6_1.index t (1 : Fin 2) * 64 + 1 * (j 1).val; omega
  refine (pay6_apply _ _).trans ?_
  exact scale_congr_idx (V c main_v62) h0

/-- An index of the output array is in point t's block iff each coordinate is in the block's range on its axis. -/
theorem mem_blk6 (t : Fin cfg6.N) (i : S300000x64.Idx) :
    i ∈ ((cfg6.win 1).blk t).view.set ↔ ∀ a : Fin 2, win6_1.index t a * S5000x64.size a ≤ (i a).val ∧ (i a).val < win6_1.index t a * S5000x64.size a + S5000x64.size a := by
  show i ∈ ((View.whole main_v63).slice (win6_1.rect t)).set ↔ _
  rw [View.set_slice_whole, Rect.mem_set_unit]
  exact Iff.rfl

/-- The 60 blocks of 5000 rows tile the 300000 rows: row r is in the block of point r / 5000. -/
theorem cover6 (i : S300000x64.Idx) :
    ∃ t : Fin cfg6.N, (cfg6.win 1).flush t = true ∧ i ∈ ((cfg6.win 1).blk t).view.set := by
  have hi0 : (i 0).val < 300000 := (i 0).isLt
  have hi1 : (i 1).val < 64 := (i 1).isLt
  have hN : cfg6.N = 60 := by decide
  have ht : (i 0).val / 5000 < cfg6.N := by rw [hN]; omega
  obtain ⟨-, -, e2, e3⟩ := idx_facts6 ⟨(i 0).val / 5000, ht⟩
  have e2' : win6_1.index ⟨(i 0).val / 5000, ht⟩ (0 : Fin 2) = (i 0).val / 5000 := e2
  refine ⟨⟨(i 0).val / 5000, ht⟩, flush6_1 _, ?_⟩
  rw [mem_blk6]
  intro a
  match a with
  | ⟨0, _⟩ =>
    show win6_1.index ⟨(i 0).val / 5000, ht⟩ (0 : Fin 2) * 5000 ≤ (i 0).val ∧ (i 0).val < win6_1.index ⟨(i 0).val / 5000, ht⟩ (0 : Fin 2) * 5000 + 5000
    omega
  | ⟨1, _⟩ =>
    show win6_1.index ⟨(i 0).val / 5000, ht⟩ (1 : Fin 2) * 64 ≤ (i 1).val ∧ (i 1).val < win6_1.index ⟨(i 0).val / 5000, ht⟩ (1 : Fin 2) * 64 + 64
    omega

/-- THE OUTPUT ARRAY of the region after all its points: the scaled operand array as the region finds it. -/
theorem final6 (c : Dev nD) :
    (dat6 V c).arrAt 1 cfg6.N = scaleG (V c main_v62) :=
  (dat6 V c).arrAt_eq_of_cover 1 (scaleG (V c main_v62)) (fun t _ => flushed6_eq V c t) cover6

end Cert.KernelIdeal.RegionValue

end
-- ==== Proof.KernelValue.lean ====
/-
  The idealized kernel's last node table in closed form. Walking the boundaries of @main: the first region's output is
  the gathered rows times the weights, the next stretch scatter-adds it (the first step `A x`), the second region adds
  it to `x`; the same three segments twice more give `A (A x)`, `A (A (A x))` and the running sums; the last region
  scales the sum by the word 0x3E800000. The padded index columns, the padded weight column and `x` reach every
  segment that reads them unchanged.
-/
import proofs.«113974_j89670327206250_2_alg».proof.Proof.KernelWalk
import proofs.«113974_j89670327206250_2_alg».proof.Proof.KernelStep
import proofs.«113974_j89670327206250_2_alg».proof.Proof.RegionFinalsMul
import proofs.«113974_j89670327206250_2_alg».proof.Proof.RegionFinalsAdd
import proofs.«113974_j89670327206250_2_alg».proof.Proof.RegionFinalsScale

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The long-lived buffers where they are read -/

theorem v0_at6 : W6 m ρ c (Proc.devRef .tc main_v0) = W1 m ρ c (Proc.devRef .tc main_v0) :=
  ((((keep_v0_W6 m ρ c).trans (keep_v0_W5 m ρ c)).trans (keep_v0_W4 m ρ c)).trans (keep_v0_W3 m ρ c)).trans (keep_v0_W2 m ρ c)

theorem v0_at9 : W9 m ρ c (Proc.devRef .tc main_v0) = W1 m ρ c (Proc.devRef .tc main_v0) :=
  (((((((keep_v0_W9 m ρ c).trans (keep_v0_W8 m ρ c)).trans (keep_v0_W7 m ρ c)).trans (keep_v0_W6 m ρ c)).trans (keep_v0_W5 m ρ c)).trans (keep_v0_W4 m ρ c)).trans (keep_v0_W3 m ρ c)).trans (keep_v0_W2 m ρ c)

theorem v24_at6 : W6 m ρ c (Proc.devRef .tc main_v24) = W2 m ρ c (Proc.devRef .tc main_v24) :=
  (((keep_v24_W6 m ρ c).trans (keep_v24_W5 m ρ c)).trans (keep_v24_W4 m ρ c)).trans (keep_v24_W3 m ρ c)

theorem v24_at10 : W10 m ρ c (Proc.devRef .tc main_v24) = W2 m ρ c (Proc.devRef .tc main_v24) :=
  (((((((keep_v24_W10 m ρ c).trans (keep_v24_W9 m ρ c)).trans (keep_v24_W8 m ρ c)).trans (keep_v24_W7 m ρ c)).trans (keep_v24_W6 m ρ c)).trans (keep_v24_W5 m ρ c)).trans (keep_v24_W4 m ρ c)).trans (keep_v24_W3 m ρ c)

theorem v24_at14 : W14 m ρ c (Proc.devRef .tc main_v24) = W2 m ρ c (Proc.devRef .tc main_v24) :=
  (((((((((((keep_v24_W14 m ρ c).trans (keep_v24_W13 m ρ c)).trans (keep_v24_W12 m ρ c)).trans (keep_v24_W11 m ρ c)).trans (keep_v24_W10 m ρ c)).trans (keep_v24_W9 m ρ c)).trans (keep_v24_W8 m ρ c)).trans (keep_v24_W7 m ρ c)).trans (keep_v24_W6 m ρ c)).trans (keep_v24_W5 m ρ c)).trans (keep_v24_W4 m ρ c)).trans (keep_v24_W3 m ρ c)

theorem v25_at8 : W8 m ρ c (Proc.devRef .tc main_v25) = W4 m ρ c (Proc.devRef .tc main_v25) :=
  (((keep_v25_W8 m ρ c).trans (keep_v25_W7 m ρ c)).trans (keep_v25_W6 m ρ c)).trans (keep_v25_W5 m ρ c)

theorem v25_at12 : W12 m ρ c (Proc.devRef .tc main_v25) = W4 m ρ c (Proc.devRef .tc main_v25) :=
  (((((((keep_v25_W12 m ρ c).trans (keep_v25_W11 m ρ c)).trans (keep_v25_W10 m ρ c)).trans (keep_v25_W9 m ρ c)).trans (keep_v25_W8 m ρ c)).trans (keep_v25_W7 m ρ c)).trans (keep_v25_W6 m ρ c)).trans (keep_v25_W5 m ρ c)

theorem v25_at16 : W16 m ρ c (Proc.devRef .tc main_v25) = W4 m ρ c (Proc.devRef .tc main_v25) :=
  (((((((((((keep_v25_W16 m ρ c).trans (keep_v25_W15 m ρ c)).trans (keep_v25_W14 m ρ c)).trans (keep_v25_W13 m ρ c)).trans (keep_v25_W12 m ρ c)).trans (keep_v25_W11 m ρ c)).trans (keep_v25_W10 m ρ c)).trans (keep_v25_W9 m ρ c)).trans (keep_v25_W8 m ρ c)).trans (keep_v25_W7 m ρ c)).trans (keep_v25_W6 m ρ c)).trans (keep_v25_W5 m ρ c)

theorem v26_at7 : W7 m ρ c (Proc.devRef .tc main_v26) = W6 m ρ c (Proc.devRef .tc main_v26) :=
  keep_v26_W7 m ρ c

theorem v26_at11 : W11 m ρ c (Proc.devRef .tc main_v26) = W6 m ρ c (Proc.devRef .tc main_v26) :=
  ((((keep_v26_W11 m ρ c).trans (keep_v26_W10 m ρ c)).trans (keep_v26_W9 m ρ c)).trans (keep_v26_W8 m ρ c)).trans (keep_v26_W7 m ρ c)

theorem v26_at15 : W15 m ρ c (Proc.devRef .tc main_v26) = W6 m ρ c (Proc.devRef .tc main_v26) :=
  ((((((((keep_v26_W15 m ρ c).trans (keep_v26_W14 m ρ c)).trans (keep_v26_W13 m ρ c)).trans (keep_v26_W12 m ρ c)).trans (keep_v26_W11 m ρ c)).trans (keep_v26_W10 m ρ c)).trans (keep_v26_W9 m ρ c)).trans (keep_v26_W8 m ρ c)).trans (keep_v26_W7 m ρ c)

theorem v38_at13 : W13 m ρ c (Proc.devRef .tc main_v38) = W10 m ρ c (Proc.devRef .tc main_v38) :=
  ((keep_v38_W13 m ρ c).trans (keep_v38_W12 m ρ c)).trans (keep_v38_W11 m ρ c)

theorem v50_at17 : W17 m ρ c (Proc.devRef .tc main_v50) = W14 m ρ c (Proc.devRef .tc main_v50) :=
  ((keep_v50_W17 m ρ c).trans (keep_v50_W16 m ρ c)).trans (keep_v50_W15 m ρ c)

/-! ## The regions' outputs over the boundary contents -/

theorem out_v34 : W8 m ρ c (Proc.devRef .tc main_v34) = mulRows (W7 m ρ c (Proc.devRef .tc main_v33)) (W7 m ρ c (Proc.devRef .tc main_v26)) :=
  (read_v34_W8 m ρ c).trans (Cert.KernelIdeal.RegionValue.final0 (V7 m ρ) c)

theorem out_v46 : W12 m ρ c (Proc.devRef .tc main_v46) = mulRows (W11 m ρ c (Proc.devRef .tc main_v45)) (W11 m ρ c (Proc.devRef .tc main_v26)) :=
  (read_v46_W12 m ρ c).trans (Cert.KernelIdeal.RegionValue.final2 (V11 m ρ) c)

theorem out_v58 : W16 m ρ c (Proc.devRef .tc main_v58) = mulRows (W15 m ρ c (Proc.devRef .tc main_v57)) (W15 m ρ c (Proc.devRef .tc main_v26)) :=
  (read_v58_W16 m ρ c).trans (Cert.KernelIdeal.RegionValue.final4 (V15 m ρ) c)

theorem out_v38 : W10 m ρ c (Proc.devRef .tc main_v38) = addRows (W9 m ρ c (Proc.devRef .tc main_v0)) (W9 m ρ c (Proc.devRef .tc main_v37)) :=
  (read_v38_W10 m ρ c).trans (Cert.KernelIdeal.RegionValue.final1 (V9 m ρ) c)

theorem out_v50 : W14 m ρ c (Proc.devRef .tc main_v50) = addRows (W13 m ρ c (Proc.devRef .tc main_v38)) (W13 m ρ c (Proc.devRef .tc main_v49)) :=
  (read_v50_W14 m ρ c).trans (Cert.KernelIdeal.RegionValue.final3 (V13 m ρ) c)

theorem out_v62 : W18 m ρ c (Proc.devRef .tc main_v62) = addRows (W17 m ρ c (Proc.devRef .tc main_v50)) (W17 m ρ c (Proc.devRef .tc main_v61)) :=
  (read_v62_W18 m ρ c).trans (Cert.KernelIdeal.RegionValue.final5 (V17 m ρ) c)

theorem out_v63 : W19 m ρ c (Proc.devRef .tc main_v63) = scaleQ (W18 m ρ c (Proc.devRef .tc main_v62)) :=
  (read_v63_W19 m ρ c).trans (Cert.KernelIdeal.RegionValue.final6 (V18 m ρ) c)

/-! ## The three steps and the running sums -/

theorem step1 : W9 m ρ c (Proc.devRef .tc main_v37) = stepK (W4 m ρ c (Proc.devRef .tc main_v25)) (W2 m ρ c (Proc.devRef .tc main_v24)) (W6 m ρ c (Proc.devRef .tc main_v26)) (W1 m ρ c (Proc.devRef .tc main_v0)) := by
  rw [read_v37_W9, out_v34, read_v33_W7, v25_at8, v26_at7, v0_at6, v24_at6]; rfl

theorem sum1 : W10 m ρ c (Proc.devRef .tc main_v38) = addRows (W1 m ρ c (Proc.devRef .tc main_v0)) (stepK (W4 m ρ c (Proc.devRef .tc main_v25)) (W2 m ρ c (Proc.devRef .tc main_v24)) (W6 m ρ c (Proc.devRef .tc main_v26)) (W1 m ρ c (Proc.devRef .tc main_v0))) := by
  rw [out_v38, step1, v0_at9]

theorem step2 : W13 m ρ c (Proc.devRef .tc main_v49) = stepK (W4 m ρ c (Proc.devRef .tc main_v25)) (W2 m ρ c (Proc.devRef .tc main_v24)) (W6 m ρ c (Proc.devRef .tc main_v26)) (stepK (W4 m ρ c (Proc.devRef .tc main_v25)) (W2 m ρ c (Proc.devRef .tc main_v24)) (W6 m ρ c (Proc.devRef .tc main_v26)) (W1 m ρ c (Proc.devRef .tc main_v0))) := by
  rw [read_v49_W13, out_v46, read_v45_W11, keep_v37_W10, step1, v25_at12, v26_at11, v24_at10]; rfl

theorem sum2 : W14 m ρ c (Proc.devRef .tc main_v50) = addRows (addRows (W1 m ρ c (Proc.devRef .tc main_v0)) (stepK (W4 m ρ c (Proc.devRef .tc main_v25)) (W2 m ρ c (Proc.devRef .tc main_v24)) (W6 m ρ c (Proc.devRef .tc main_v26)) (W1 m ρ c (Proc.devRef .tc main_v0)))) (stepK (W4 m ρ c (Proc.devRef .tc main_v25)) (W2 m ρ c (Proc.devRef .tc main_v24)) (W6 m ρ c (Proc.devRef .tc main_v26)) (stepK (W4 m ρ c (Proc.devRef .tc main_v25)) (W2 m ρ c (Proc.devRef .tc main_v24)) (W6 m ρ c (Proc.devRef .tc main_v26)) (W1 m ρ c (Proc.devRef .tc main_v0)))) := by
  rw [out_v50, step2, v38_at13, sum1]

theorem step3 : W17 m ρ c (Proc.devRef .tc main_v61) = stepK (W4 m ρ c (Proc.devRef .tc main_v25)) (W2 m ρ c (Proc.devRef .tc main_v24)) (W6 m ρ c (Proc.devRef .tc main_v26)) (stepK (W4 m ρ c (Proc.devRef .tc main_v25)) (W2 m ρ c (Proc.devRef .tc main_v24)) (W6 m ρ c (Proc.devRef .tc main_v26)) (stepK (W4 m ρ c (Proc.devRef .tc main_v25)) (W2 m ρ c (Proc.devRef .tc main_v24)) (W6 m ρ c (Proc.devRef .tc main_v26)) (W1 m ρ c (Proc.devRef .tc main_v0)))) := by
  rw [read_v61_W17, out_v58, read_v57_W15, keep_v49_W14, step2, v25_at16, v26_at15, v24_at14]; rfl

/-- The last node table is `outK` of the padded columns and `x`. -/
theorem last_table : W19 m ρ c (Proc.devRef .tc main_v63) = outK (W4 m ρ c (Proc.devRef .tc main_v25)) (W2 m ρ c (Proc.devRef .tc main_v24)) (W6 m ρ c (Proc.devRef .tc main_v26)) (W1 m ρ c (Proc.devRef .tc main_v0)) := by
  rw [out_v63, out_v62, step3, v50_at17, sum2]; rfl

end Cert.KernelIdeal.Walk

end
-- ==== Proof.KernelStart.lean ====
/-
  The idealized kernel program before its first region. The first stretch of host operations is the reference's own
  first operations: the node table (the two embedding tables one above the other) and the per-edge weight column.
  The next stretches pad the target indices, the source indices and the weight column from 4000000 to 4001792 entries
  with the index 0, the index 0 and the weight 0.
-/
import proofs.«113974_j89670327206250_2_alg».proof.Proof.KernelOps
import proofs.«113974_j89670327206250_2_alg».proof.Proof.Gen.ReferenceIdeal.Read

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-! ## The arguments and the constants the pads read -/

theorem arg3_W1 : W1 m ρ c (Proc.devRef .tc main_arg3) = m ((c : Thread nD τ).loc main_arg3) :=
  (StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem arg2_W1 : W1 m ρ c (Proc.devRef .tc main_arg2) = m ((c : Thread nD τ).loc main_arg2) :=
  (StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))).trans rfl

theorem keep_arg2_W2 : W2 m ρ c (Proc.devRef .tc main_arg2) = W1 m ρ c (Proc.devRef .tc main_arg2) :=
  StableHlo.after_of_forall_not_mem (b := Proc.devRef .tc main_arg2) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_arg2_W3 : W3 m ρ c (Proc.devRef .tc main_arg2) = W2 m ρ c (Proc.devRef .tc main_arg2) :=
  StableHlo.after_of_forall_not_mem (b := Proc.devRef .tc main_arg2) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem read_c_5_W1 : W1 m ρ c (Proc.devRef .tc main_c_5) = constantI S_ 32 0#32 := by
  show StableHlo.after hostOps0 (W0 m ρ c) (Proc.devRef .tc main_c_5) = constantI S_ 32 0#32
  generalize W0 m ρ c = V
  dsimp only [hostOps0]
  after_results_simp
  all_goals rfl

theorem read_c_6_W3 : W3 m ρ c (Proc.devRef .tc main_c_6) = constantI S_ 32 0#32 := by
  show StableHlo.after hostOps0_2 (W2 m ρ c) (Proc.devRef .tc main_c_6) = constantI S_ 32 0#32
  generalize W2 m ρ c = V
  dsimp only [hostOps0_2]
  after_results
  all_goals rfl

theorem read_cst_7_W5 : W5 m ρ c (Proc.devRef .tc main_cst_7) = constant (F := Ideal) S_ .f32 0x00000000#32 := by
  show StableHlo.after hostOps0_4 (W4 m ρ c) (Proc.devRef .tc main_cst_7) = constant (F := Ideal) S_ .f32 0x00000000#32
  generalize W4 m ρ c = V
  dsimp only [hostOps0_4]
  after_results
  all_goals rfl

/-! ## The weight column reaches its pad unchanged -/

theorem keep_v23_W2 : W2 m ρ c (Proc.devRef .tc main_v23) = W1 m ρ c (Proc.devRef .tc main_v23) :=
  StableHlo.after_of_forall_not_mem (b := Proc.devRef .tc main_v23) _ _ (List.forall_iff_forall_mem.mp (by
    simp only [hostOps0_1, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v23_W3 : W3 m ρ c (Proc.devRef .tc main_v23) = W2 m ρ c (Proc.devRef .tc main_v23) :=
  StableHlo.after_of_forall_not_mem (b := Proc.devRef .tc main_v23) _ _ (List.forall_iff_forall_mem.mp (by
    simp only [hostOps0_2, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v23_W4 : W4 m ρ c (Proc.devRef .tc main_v23) = W3 m ρ c (Proc.devRef .tc main_v23) :=
  StableHlo.after_of_forall_not_mem (b := Proc.devRef .tc main_v23) _ _ (List.forall_iff_forall_mem.mp (by
    simp only [hostOps0_3, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

theorem keep_v23_W5 : W5 m ρ c (Proc.devRef .tc main_v23) = W4 m ρ c (Proc.devRef .tc main_v23) :=
  StableHlo.after_of_forall_not_mem (b := Proc.devRef .tc main_v23) _ _ (List.forall_iff_forall_mem.mp (by
    simp only [hostOps0_4, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The three pads -/

theorem read_v24_W2 : W2 m ρ c (Proc.devRef .tc main_v24) = pad S4001792 ![0] ![1792] ![0] (W1 m ρ c (Proc.devRef .tc main_arg3)) (id (W1 m ρ c (Proc.devRef .tc main_c_5))) pads_S4000000_S4001792_017920 h_S_ := by
  show StableHlo.after hostOps0_1 (W1 m ρ c) (Proc.devRef .tc main_v24) = pad S4001792 ![0] ![1792] ![0] (W1 m ρ c (Proc.devRef .tc main_arg3)) (id (W1 m ρ c (Proc.devRef .tc main_c_5))) pads_S4000000_S4001792_017920 h_S_
  generalize W1 m ρ c = V
  dsimp only [hostOps0_1]
  after_results
  all_goals rfl

theorem read_v25_W4 : W4 m ρ c (Proc.devRef .tc main_v25) = pad S4001792 ![0] ![1792] ![0] (W3 m ρ c (Proc.devRef .tc main_arg2)) (id (W3 m ρ c (Proc.devRef .tc main_c_6))) pads_S4000000_S4001792_017920 h_S_ := by
  show StableHlo.after hostOps0_3 (W3 m ρ c) (Proc.devRef .tc main_v25) = pad S4001792 ![0] ![1792] ![0] (W3 m ρ c (Proc.devRef .tc main_arg2)) (id (W3 m ρ c (Proc.devRef .tc main_c_6))) pads_S4000000_S4001792_017920 h_S_
  generalize W3 m ρ c = V
  dsimp only [hostOps0_3]
  after_results
  all_goals rfl

theorem read_v26_W6 : W6 m ρ c (Proc.devRef .tc main_v26) = pad S4001792x1 ![0, 0] ![1792, 0] ![0, 0] (W5 m ρ c (Proc.devRef .tc main_v23)) (id (W5 m ρ c (Proc.devRef .tc main_cst_7))) pads_S4000000x1_S4001792x1_017920_000 h_S_ := by
  show StableHlo.after hostOps0_5 (W5 m ρ c) (Proc.devRef .tc main_v26) = pad S4001792x1 ![0, 0] ![1792, 0] ![0, 0] (W5 m ρ c (Proc.devRef .tc main_v23)) (id (W5 m ρ c (Proc.devRef .tc main_cst_7))) pads_S4000000x1_S4001792x1_017920_000 h_S_
  generalize W5 m ρ c = V
  dsimp only [hostOps0_5]
  after_results
  all_goals rfl

/-! ## The first stretch is the reference's -/

theorem v0_W1 : W1 m ρ c (Proc.devRef .tc main_v0) = Cert.ReferenceIdeal.Read.val_main_v0 (F := Ideal) (m ((c : Thread nD τ).loc main_arg0)) (m ((c : Thread nD τ).loc main_arg1)) := by
  show StableHlo.after hostOps0 (W0 m ρ c) (Proc.devRef .tc main_v0) = Cert.ReferenceIdeal.Read.val_main_v0 (F := Ideal) (m ((c : Thread nD τ).loc main_arg0)) (m ((c : Thread nD τ).loc main_arg1))
  have e0 : W0 m ρ c (Proc.devRef .tc main_arg0) = m ((c : Thread nD τ).loc main_arg0) := rfl
  have e1 : W0 m ρ c (Proc.devRef .tc main_arg1) = m ((c : Thread nD τ).loc main_arg1) := rfl
  generalize W0 m ρ c = V at e0 e1 ⊢
  dsimp only [hostOps0]
  after_results_simp
  rw [e0, e1]
  rfl

theorem v23_W1 : W1 m ρ c (Proc.devRef .tc main_v23) = Cert.ReferenceIdeal.Read.val_main_v23 (F := Ideal) (m ((c : Thread nD τ).loc main_arg2)) (m ((c : Thread nD τ).loc main_arg3)) := by
  show StableHlo.after hostOps0 (W0 m ρ c) (Proc.devRef .tc main_v23) = Cert.ReferenceIdeal.Read.val_main_v23 (F := Ideal) (m ((c : Thread nD τ).loc main_arg2)) (m ((c : Thread nD τ).loc main_arg3))
  have e2 : W0 m ρ c (Proc.devRef .tc main_arg2) = m ((c : Thread nD τ).loc main_arg2) := rfl
  have e3 : W0 m ρ c (Proc.devRef .tc main_arg3) = m ((c : Thread nD τ).loc main_arg3) := rfl
  generalize W0 m ρ c = V at e2 e3 ⊢
  dsimp only [hostOps0]
  after_results_simp
  rw [e2, e3]
  rfl

end Cert.KernelIdeal.Walk

end
-- ==== Proof.LibRowScatterPad.lean ====
/-
  ROW GATHER, ROW SCATTER-ADD, AND PADDING THE EDGE LIST WITH ZERO-WEIGHT EDGES.

  A graph propagation step over N nodes with D features and E edges: gather row idxD[e] of h : [N, D] for every edge e,
  scale it by a weight w[e], and add it into row idxS[e] of an accumulator z : [N, D]. In StableHLO terms this is a
  gather with one start index per edge (read signed and clamped into [0, N - 1]) followed by a scatter with an add body
  (scatter index read signed, not clamped; an update that falls outside the operand is dropped).

  The file reads both operations at an element:
    gather_rows_apply   the gather at (e, k) is the operand at (clamp idx[e], k);
    resultIdx?_rows     the scatter puts update element (e, k) at (idx[e], k) when 0 ≤ idx[e] < N, nowhere otherwise;
  and shows that neither changes on the old edges when the edge list is made longer (gather_rows_pad,
  resultIdx?_rows_pad). The main statement, propStep_pad: a step over E' ≥ E edges whose first E edges carry the same
  indices and weights as a step over E edges, and whose further edges all have weight 0, computes the same array over
  the extended reals. The proof matches the terms of the two scatter sums one to one along e ↦ e; a term of a further
  edge is 0 · x = 0 for every extended real x, infinite ones included, so no finiteness hypothesis is needed.
  Everything is generic in the sizes N, E, E', D.
-/
import Idealize.ShloMosaic.PureOps.Ideal
import Idealize.ShloMosaic.Lib.ValueIdx

noncomputable section

open scoped BigOperators

namespace Cert.Lib

open Idealize.ShloMosaic Idealize.ShloMosaic.ValueIdx

/-- Dimension numbers of a ROW gather: operand [N, D], one start index per edge ([E, 1]), result [E, D]; result
    row e is the operand's row at start index e. -/
abbrev rowGatherDims (N E D : Nat)
    (wf : GatherDims.WF ⟨2, ![N, D]⟩ ⟨2, ![E, 1]⟩ ⟨2, ![E, D]⟩ [1] [0] [] [0] [] 1 ![1, D]) :
    GatherDims ⟨2, ![N, D]⟩ ⟨2, ![E, 1]⟩ ⟨2, ![E, D]⟩ where
  offsetDims := [1]
  collapsedSliceDims := [0]
  operandBatchingDims := []
  startIndicesBatchingDims := []
  startIndexMap := [0]
  indexVectorDim := 1
  sliceSizes := ![1, D]
  wf := wf

/-- Dimension numbers of a ROW scatter: operand [N, D], one scatter index per edge ([E, 1]), updates [E, D];
    update row e lands on the operand's row at scatter index e. -/
abbrev rowScatterDims (N E D : Nat)
    (wf : ScatterDims.WF ⟨2, ![N, D]⟩ ⟨2, ![E, 1]⟩ ⟨2, ![E, D]⟩ [1] [0] [0] 1) :
    ScatterDims ⟨2, ![N, D]⟩ ⟨2, ![E, 1]⟩ ⟨2, ![E, D]⟩ where
  updateWindowDims := [1]
  insertedWindowDims := [0]
  scatterDimsToOperandDims := [0]
  indexVectorDim := 1
  wf := wf

section Gather
variable {α : Type}

/-- The start-indices position a row gather reads for result element (e, k): (e, 0). -/
theorem rowGather_siIdx {N E D : Nat} (wf) (e : Fin E) (k : Fin D) (h) :
    (rowGatherDims N E D wf).siIdx (ix2 e k) ⟨List.idxOf (0 : Fin 2) (rowGatherDims N E D wf).startIndexMap, h⟩
      = ix2 e (0 : Fin 1) := by
  funext b; refine Fin.ext ?_
  match b with
  | ⟨0, _⟩ => rfl
  | ⟨1, _⟩ => rfl

/-- Row coordinate of the operand index a row gather reads for result element (e, k): the start index of edge e,
    read signed and clamped into [0, N - 1]. -/
theorem rowGather_coord0 {N E D w : Nat} (wf) (idx : IVec ⟨2, ![E, 1]⟩ w) (e : Fin E) (k : Fin D) :
    ((rowGatherDims N E D wf).operandIdx (ix2 e k) idx (0 : Fin 2)).val
      = min (idx (ix2 e (0 : Fin 1))).toInt.toNat (N - 1) := by
  show (rowGatherDims N E D wf).start (ix2 e k) idx (0 : Fin 2) + (rowGatherDims N E D wf).batchCoord (ix2 e k) (0 : Fin 2)
    + (rowGatherDims N E D wf).offCoord (ix2 e k) (0 : Fin 2) = _
  rw [GatherDims.batchCoord_eq_zero _ _ _ List.not_mem_nil,
    GatherDims.offCoord_eq_zero _ _ _
      (fun h => ((GatherDims.mem_sKept _ _).mp h).1 (List.mem_singleton.mpr rfl))]
  simp only [Nat.add_zero]
  unfold GatherDims.start
  rw [dif_pos (show (0 : Fin 2) ∈ (rowGatherDims N E D wf).startIndexMap from List.mem_singleton.mpr rfl)]
  rw [rowGather_siIdx]
  rfl

/-- Column coordinate of that operand index: k. -/
theorem rowGather_coord1 {N E D w : Nat} (wf) (idx : IVec ⟨2, ![E, 1]⟩ w) (e : Fin E) (k : Fin D) :
    ((rowGatherDims N E D wf).operandIdx (ix2 e k) idx (1 : Fin 2)).val = k.val := by
  show (rowGatherDims N E D wf).start (ix2 e k) idx (1 : Fin 2) + (rowGatherDims N E D wf).batchCoord (ix2 e k) (1 : Fin 2)
    + (rowGatherDims N E D wf).offCoord (ix2 e k) (1 : Fin 2) = _
  rw [GatherDims.batchCoord_eq_zero _ _ _ List.not_mem_nil]
  have h1 : (1 : Fin 2) ∉ (rowGatherDims N E D wf).startIndexMap := by
    intro h; exact absurd (List.mem_singleton.mp h) (by decide : (1 : Fin 2) ≠ 0)
  unfold GatherDims.start
  rw [dif_neg h1]
  have hk : (1 : Fin 2) ∈ (rowGatherDims N E D wf).sKept :=
    (GatherDims.mem_sKept _ _).mpr
      ⟨fun h => absurd (List.mem_singleton.mp h) (by decide : (1 : Fin 2) ≠ 0), List.not_mem_nil⟩
  unfold GatherDims.offCoord
  rw [dif_pos hk]
  simp only [Nat.zero_add, Nat.add_zero]
  rfl

/-- A ROW GATHER READ AT (e, k): the operand at row "start index of edge e, read signed and clamped into [0, N - 1]",
    column k. -/
theorem gather_rows_apply {N E D w : Nat} (hN : 0 < N) (wf)
    (x : (⟨2, ![N, D]⟩ : Shape).Idx → α) (idx : IVec ⟨2, ![E, 1]⟩ w) (e : Fin E) (k : Fin D) :
    Host.gather (rowGatherDims N E D wf) x idx (ix2 e k)
      = x (ix2 ⟨min (idx (ix2 e (0 : Fin 1))).toInt.toNat (N - 1), by omega⟩ k) := by
  unfold Host.gather
  congr 1
  funext a
  refine Fin.ext ?_
  match a with
  | ⟨0, _⟩ => exact rowGather_coord0 wf idx e k
  | ⟨1, _⟩ => exact rowGather_coord1 wf idx e k

end Gather

section GatherPad
variable {α : Type}

/-- A well-formed row gather has a nonempty operand: its slice of one row fits. -/
theorem rowGather_pos {N E D : Nat}
    (wf : GatherDims.WF ⟨2, ![N, D]⟩ ⟨2, ![E, 1]⟩ ⟨2, ![E, D]⟩ [1] [0] [] [0] [] 1 ![1, D]) : 0 < N := (rowGatherDims N E D wf).slice_le (0 : Fin 2)

/-- PADDING THE EDGE LIST DOES NOT CHANGE A ROW GATHER ON THE OLD EDGES: when the longer start-index array agrees
    with the shorter one at edge e, the two gathers read the same operand element at (e, k). -/
theorem gather_rows_pad {N E E' D w : Nat} (hE : E ≤ E') (wf) (wf')
    (x : (⟨2, ![N, D]⟩ : Shape).Idx → α) (idx : IVec ⟨2, ![E, 1]⟩ w) (idx' : IVec ⟨2, ![E', 1]⟩ w)
    (e : Fin E) (k : Fin D) (h : idx' (ix2 (Fin.castLE hE e) (0 : Fin 1)) = idx (ix2 e (0 : Fin 1))) :
    Host.gather (rowGatherDims N E' D wf') x idx' (ix2 (Fin.castLE hE e) k)
      = Host.gather (rowGatherDims N E D wf) x idx (ix2 e k) := by
  have hN : 0 < N := rowGather_pos wf
  rw [gather_rows_apply hN wf', gather_rows_apply hN wf]
  simp only [h]

end GatherPad

section Scatter

/-- The scatter-indices position a row scatter reads for update element (e, k): (e, 0). -/
theorem rowScatter_siIdx {N E D : Nat} (wf) (e : Fin E) (k : Fin D) (h) :
    (rowScatterDims N E D wf).siIdx (ix2 e k)
        ⟨List.idxOf (0 : Fin 2) (rowScatterDims N E D wf).scatterDimsToOperandDims, h⟩
      = ix2 e (0 : Fin 1) := by
  funext b; refine Fin.ext ?_
  match b with
  | ⟨0, _⟩ => rfl
  | ⟨1, _⟩ => rfl

/-- Row start of update element (e, k): the scatter index of edge e, read signed, not clamped. -/
theorem rowScatter_start0 {N E D w : Nat} (wf) (idx : IVec ⟨2, ![E, 1]⟩ w) (e : Fin E) (k : Fin D) :
    (rowScatterDims N E D wf).start (ix2 e k) idx (0 : Fin 2) = (idx (ix2 e (0 : Fin 1))).toInt := by
  unfold ScatterDims.start
  rw [dif_pos (show (0 : Fin 2) ∈ (rowScatterDims N E D wf).scatterDimsToOperandDims from List.mem_singleton.mpr rfl)]
  rw [rowScatter_siIdx]

/-- Column start of update element (e, k): 0, the column axis is not indexed. -/
theorem rowScatter_start1 {N E D w : Nat} (wf) (idx : IVec ⟨2, ![E, 1]⟩ w) (e : Fin E) (k : Fin D) :
    (rowScatterDims N E D wf).start (ix2 e k) idx (1 : Fin 2) = 0 := by
  unfold ScatterDims.start
  rw [dif_neg (fun h => absurd (List.mem_singleton.mp h) (by decide : (1 : Fin 2) ≠ 0))]

/-- Row window coordinate of update element (e, k): 0, the row axis is an inserted window axis. -/
theorem rowScatter_window0 {N E D : Nat} (wf) (e : Fin E) (k : Fin D) :
    (rowScatterDims N E D wf).window (ix2 e k) (0 : Fin 2) = 0 := by
  unfold ScatterDims.window
  rw [dif_neg]
  simp [ScatterDims.sKept, Shape.kept]

/-- Column window coordinate of update element (e, k): k. -/
theorem rowScatter_window1 {N E D : Nat} (wf) (e : Fin E) (k : Fin D) :
    (rowScatterDims N E D wf).window (ix2 e k) (1 : Fin 2) = k.val := by
  unfold ScatterDims.window
  have hk : (1 : Fin 2) ∈ (rowScatterDims N E D wf).sKept := by
    simp [ScatterDims.sKept, Shape.kept]
  rw [dif_pos hk]
  rfl

end Scatter

section ScatterClosed

/-- Row coordinate update element (e, k) lands at: the scatter index of edge e, read signed. -/
theorem rowScatter_sum0 {N E D w : Nat} (wf) (idx : IVec ⟨2, ![E, 1]⟩ w) (e : Fin E) (k : Fin D) :
    (rowScatterDims N E D wf).start (ix2 e k) idx (0 : Fin 2) + ((rowScatterDims N E D wf).window (ix2 e k) (0 : Fin 2) : Int)
      = (idx (ix2 e (0 : Fin 1))).toInt := by
  rw [rowScatter_start0, rowScatter_window0]; simp

/-- Column coordinate update element (e, k) lands at: k. -/
theorem rowScatter_sum1 {N E D w : Nat} (wf) (idx : IVec ⟨2, ![E, 1]⟩ w) (e : Fin E) (k : Fin D) :
    (rowScatterDims N E D wf).start (ix2 e k) idx (1 : Fin 2) + ((rowScatterDims N E D wf).window (ix2 e k) (1 : Fin 2) : Int)
      = (k.val : Int) := by
  rw [rowScatter_start1, rowScatter_window1]; simp

/-- WHERE A ROW SCATTER PUTS UPDATE ELEMENT (e, k): with t the scatter index of edge e read signed, at operand element
    (t, k) when 0 ≤ t < N, and nowhere (the update is dropped) otherwise. -/
theorem resultIdx?_rows {N E D w : Nat} (wf) (idx : IVec ⟨2, ![E, 1]⟩ w) (e : Fin E) (k : Fin D) :
    (rowScatterDims N E D wf).resultIdx? (ix2 e k) idx
      = if h : 0 ≤ (idx (ix2 e (0 : Fin 1))).toInt ∧ (idx (ix2 e (0 : Fin 1))).toInt < (N : Int) then
          some (ix2 ⟨(idx (ix2 e (0 : Fin 1))).toInt.toNat, by omega⟩ k)
        else none := by
  have hk := k.isLt
  unfold ScatterDims.resultIdx?
  by_cases h : 0 ≤ (idx (ix2 e (0 : Fin 1))).toInt ∧ (idx (ix2 e (0 : Fin 1))).toInt < (N : Int)
  · have hall : ∀ a, 0 ≤ (rowScatterDims N E D wf).start (ix2 e k) idx a + ((rowScatterDims N E D wf).window (ix2 e k) a : Int)
        ∧ (rowScatterDims N E D wf).start (ix2 e k) idx a + ((rowScatterDims N E D wf).window (ix2 e k) a : Int)
          < ((⟨2, ![N, D]⟩ : Shape).size a : Int) := by
      intro a
      match a with
      | ⟨0, _⟩ =>
        show 0 ≤ (rowScatterDims N E D wf).start (ix2 e k) idx (0 : Fin 2) + ((rowScatterDims N E D wf).window (ix2 e k) (0 : Fin 2) : Int)
          ∧ (rowScatterDims N E D wf).start (ix2 e k) idx (0 : Fin 2) + ((rowScatterDims N E D wf).window (ix2 e k) (0 : Fin 2) : Int) < (N : Int)
        rw [rowScatter_sum0]; exact h
      | ⟨1, _⟩ =>
        show 0 ≤ (rowScatterDims N E D wf).start (ix2 e k) idx (1 : Fin 2) + ((rowScatterDims N E D wf).window (ix2 e k) (1 : Fin 2) : Int)
          ∧ (rowScatterDims N E D wf).start (ix2 e k) idx (1 : Fin 2) + ((rowScatterDims N E D wf).window (ix2 e k) (1 : Fin 2) : Int) < (D : Int)
        rw [rowScatter_sum1]; omega
    rw [dif_pos hall, dif_pos h]
    congr 1
    funext a
    refine Fin.ext ?_
    match a with
    | ⟨0, _⟩ =>
      show ((rowScatterDims N E D wf).start (ix2 e k) idx (0 : Fin 2) + ((rowScatterDims N E D wf).window (ix2 e k) (0 : Fin 2) : Int)).toNat
        = (idx (ix2 e (0 : Fin 1))).toInt.toNat
      rw [rowScatter_sum0]
    | ⟨1, _⟩ =>
      show ((rowScatterDims N E D wf).start (ix2 e k) idx (1 : Fin 2) + ((rowScatterDims N E D wf).window (ix2 e k) (1 : Fin 2) : Int)).toNat
        = k.val
      rw [rowScatter_sum1]; simp
  · rw [dif_neg h, dif_neg]
    intro hall
    apply h
    have h0 := hall (0 : Fin 2)
    rw [rowScatter_sum0] at h0
    exact h0

/-- PADDING THE EDGE LIST DOES NOT CHANGE WHERE A ROW SCATTER PUTS THE OLD EDGES' UPDATES: when the longer
    scatter-index array agrees with the shorter one at edge e, update element (e, k) lands at the same operand
    element (or is dropped) in both. -/
theorem resultIdx?_rows_pad {N E E' D w : Nat} (hE : E ≤ E') (wf) (wf')
    (idx : IVec ⟨2, ![E, 1]⟩ w) (idx' : IVec ⟨2, ![E', 1]⟩ w)
    (e : Fin E) (k : Fin D) (h : idx' (ix2 (Fin.castLE hE e) (0 : Fin 1)) = idx (ix2 e (0 : Fin 1))) :
    (rowScatterDims N E' D wf').resultIdx? (ix2 (Fin.castLE hE e) k) idx'
      = (rowScatterDims N E D wf).resultIdx? (ix2 e k) idx := by
  rw [resultIdx?_rows wf', resultIdx?_rows wf]
  simp only [h]

end ScatterClosed

section Propagation

/-- One propagation step: row e of h gathered at idxD, scaled by w e, accumulated into row idxS e on top of z. -/
def propStep {N E D : Nat} (dG : GatherDims ⟨2, ![N, D]⟩ ⟨2, ![E, 1]⟩ ⟨2, ![E, D]⟩)
    (dS : ScatterDims ⟨2, ![N, D]⟩ ⟨2, ![E, 1]⟩ ⟨2, ![E, D]⟩)
    (z : (⟨2, ![N, D]⟩ : Shape).Idx → EReal) (idxD idxS : IVec ⟨2, ![E, 1]⟩ 32)
    (w : (⟨2, ![E, 1]⟩ : Shape).Idx → EReal)
    (h : (⟨2, ![N, D]⟩ : Shape).Idx → EReal) : (⟨2, ![N, D]⟩ : Shape).Idx → EReal :=
  Ideal.hostScatterAdd dS z idxS (fun j => w (ix2 (j 0) 0) * Host.gather dG h idxD j)

/-- PADDING THE EDGE LIST WITH ZERO-WEIGHT EDGES DOES NOT CHANGE A PROPAGATION STEP. The longer edge list (E' edges)
    agrees with the shorter one (E edges) on the first E edges, in both index arrays and in the weights, and every
    further edge has weight 0. Each output element is z plus the sum of the weighted gathered elements that land on
    it; the old edges' terms correspond one to one, with equal landing places and equal values, and every term of a
    further edge is 0 times an extended real, which is 0 (also for an infinite one), so wherever such a term lands it
    adds nothing. No finiteness is assumed. -/
theorem propStep_pad {N E E' D : Nat} (hE : E ≤ E') (wfG) (wfG') (wfS) (wfS')
    (z h : (⟨2, ![N, D]⟩ : Shape).Idx → EReal)
    (idxD idxS : IVec ⟨2, ![E, 1]⟩ 32) (idxD' idxS' : IVec ⟨2, ![E', 1]⟩ 32)
    (w : (⟨2, ![E, 1]⟩ : Shape).Idx → EReal) (w' : (⟨2, ![E', 1]⟩ : Shape).Idx → EReal)
    (hD : ∀ e : Fin E, idxD' (ix2 (Fin.castLE hE e) 0) = idxD (ix2 e 0))
    (hS : ∀ e : Fin E, idxS' (ix2 (Fin.castLE hE e) 0) = idxS (ix2 e 0))
    (hw : ∀ e : Fin E, w' (ix2 (Fin.castLE hE e) 0) = w (ix2 e 0))
    (hw0 : ∀ e : Fin E', E ≤ e.val → w' (ix2 e 0) = 0) :
    propStep (rowGatherDims N E' D wfG') (rowScatterDims N E' D wfS') z idxD' idxS' w' h
      = propStep (rowGatherDims N E D wfG) (rowScatterDims N E D wfS) z idxD idxS w h := by
  have hval : ∀ (e : Fin E) (k : Fin D),
      w' (ix2 (Fin.castLE hE e) 0) * Host.gather (rowGatherDims N E' D wfG') h idxD' (ix2 (Fin.castLE hE e) k)
        = w (ix2 e 0) * Host.gather (rowGatherDims N E D wfG) h idxD (ix2 e k) := by
    intro e k
    rw [hw e, gather_rows_pad hE wfG wfG' h idxD idxD' e k (hD e)]
  funext i
  unfold propStep Ideal.hostScatterAdd
  congr 1
  symm
  refine Finset.sum_bij_ne_zero (fun j _ _ => ix2 (Fin.castLE hE (j 0)) (j 1)) ?_ ?_ ?_ ?_
  · intro j hj _
    obtain ⟨e, k, rfl⟩ : ∃ (e : Fin E) (k : Fin D), j = ix2 e k := ⟨j 0, j 1, eq_ix2 j⟩
    show ix2 (Fin.castLE hE e) k ∈ _
    rw [Finset.mem_filter] at hj ⊢
    refine ⟨Finset.mem_univ _, ?_⟩
    rw [resultIdx?_rows_pad hE wfS wfS' idxS idxS' e k (hS e)]
    exact hj.2
  · intro j₁ _ _ j₂ _ _ hj
    obtain ⟨e₁, k₁, rfl⟩ : ∃ (e : Fin E) (k : Fin D), j₁ = ix2 e k := ⟨j₁ 0, j₁ 1, eq_ix2 j₁⟩
    obtain ⟨e₂, k₂, rfl⟩ : ∃ (e : Fin E) (k : Fin D), j₂ = ix2 e k := ⟨j₂ 0, j₂ 1, eq_ix2 j₂⟩
    change ix2 (Fin.castLE hE e₁) k₁ = ix2 (Fin.castLE hE e₂) k₂ at hj
    have h0 : Fin.castLE hE e₁ = Fin.castLE hE e₂ := congrFun hj 0
    have h1 : k₁ = k₂ := congrFun hj 1
    have h0' : e₁ = e₂ := Fin.ext (by simpa using congrArg Fin.val h0)
    rw [h0', h1]
  · intro b hb hb0
    obtain ⟨e', k, rfl⟩ : ∃ (e' : Fin E') (k : Fin D), b = ix2 e' k := ⟨b 0, b 1, eq_ix2 b⟩
    change w' (ix2 e' 0) * Host.gather (rowGatherDims N E' D wfG') h idxD' (ix2 e' k) ≠ 0 at hb0
    by_cases hlt : e'.val < E
    · have he : Fin.castLE hE ⟨e'.val, hlt⟩ = e' := Fin.ext rfl
      refine ⟨ix2 (⟨e'.val, hlt⟩ : Fin E) k, ?_, ?_, ?_⟩
      · rw [Finset.mem_filter]
        refine ⟨Finset.mem_univ _, ?_⟩
        rw [← resultIdx?_rows_pad hE wfS wfS' idxS idxS' ⟨e'.val, hlt⟩ k (hS _), he]
        exact (Finset.mem_filter.mp hb).2
      · show w (ix2 (⟨e'.val, hlt⟩ : Fin E) 0) * Host.gather (rowGatherDims N E D wfG) h idxD (ix2 (⟨e'.val, hlt⟩ : Fin E) k) ≠ 0
        rw [← hval ⟨e'.val, hlt⟩ k, he]
        exact hb0
      · show ix2 (Fin.castLE hE (⟨e'.val, hlt⟩ : Fin E)) k = ix2 e' k
        rw [he]
    · exfalso
      apply hb0
      rw [hw0 e' (Nat.le_of_not_lt hlt), zero_mul]
  · intro j _ _
    obtain ⟨e, k, rfl⟩ : ∃ (e : Fin E) (k : Fin D), j = ix2 e k := ⟨j 0, j 1, eq_ix2 j⟩
    exact (hval e k).symm

end Propagation

end Cert.Lib

end
-- ==== Proof.StepBridge.lean ====
/-
  The idealized kernel's propagation step IS the reference's. The kernel pads the edge list from 4000000 to 4001792
  edges: target index 0, source index 0, weight 0. On the first 4000000 edges the padded target indices (after the
  same wrapping of negative entries), the padded source indices and the padded weights are the reference's; every
  further edge has weight 0, so its row is 0 times an extended real, which is 0, and adds nothing wherever it lands.
  Both steps are then one scatter-add of weighted gathered rows onto the same zeros, and the kernel's `g · w` is the
  reference's `w · g`.
-/
import proofs.«113974_j89670327206250_2_alg».proof.Proof.KernelStep
import proofs.«113974_j89670327206250_2_alg».proof.Proof.Gen.ReferenceIdeal.Read
import proofs.«113974_j89670327206250_2_alg».proof.Proof.LibRowScatterPad
import Idealize.ShloMosaic.Lib.KernelVsHost
import Idealize.ShloMosaic.Lib.Pipeline.Value
import Idealize.ShloMosaic.PureOps.Ideal.Laws

set_option maxRecDepth 16384

noncomputable section

namespace Cert.KernelIdeal.Walk

open Cert.KernelIdeal Cert.KernelIdeal.Gen Idealize.ShloMosaic Idealize.ShloMosaic.ValueIdx Cert.Lib

/-- The reference's propagation step as a function of the node table, over its own index and weight columns. -/
def stepR (a2 a3 : IVec S4000000 32) (wcol : FVec Ideal S4000000x1 .f32) (h : FVec Ideal S300000x64 .f32) : FVec Ideal S300000x64 .f32 :=
  Host.scatterAdd Cert.ReferenceIdeal.scatter_S300000x64_S4000000x1_S4000000x64_1_0_0_1 (Cert.ReferenceIdeal.Read.val_main_v33 (F := Ideal)) (Cert.ReferenceIdeal.Read.val_main_v34 (F := Ideal) a2)
    (mulf (broadcastInDim Cert.ReferenceIdeal.S4000000x64 ![0, 1] Cert.ReferenceIdeal.Facts₀.bcast_S4000000x1_S4000000x64_0_1 wcol)
      (Host.gather Cert.ReferenceIdeal.gather_S300000x64_S4000000x1_S4000000x64_1_0_n_n_0_1_164 h (Cert.ReferenceIdeal.Read.val_main_v29 (F := Ideal) a3)))

theorem le_pad : 4000000 ≤ 4001792 := by decide

/-! ## The pads read at an index -/

/-- A padded index column agrees with the column on the first 4000000 entries. -/
theorem padI_inside (a : IVec S4000000 32) (v : IVec S_ 32) (e : Fin 4000000) :
    pad S4001792 ![0] ![1792] ![0] a v pads_S4000000_S4001792_017920 h_S_ (ix1 (Fin.castLE le_pad e)) = a (ix1 e) :=
  pad_apply_of_inside _ _ _ a v pads_S4000000_S4001792_017920 h_S_ (ix1 (Fin.castLE le_pad e)) (ix1 e) (fun b => match b with
    | ⟨0, _⟩ => by show e.val = 0 + e.val * (0 + 1); omega)

/-- The padded weight column agrees with the column on the first 4000000 entries. -/
theorem padW_inside (wcol : FVec Ideal S4000000x1 .f32) (v : FVec Ideal S_ .f32) (e : Fin 4000000) :
    pad S4001792x1 ![0, 0] ![1792, 0] ![0, 0] wcol v pads_S4000000x1_S4001792x1_017920_000 h_S_ (ix2 (Fin.castLE le_pad e) (0 : Fin 1)) = wcol (ix2 e (0 : Fin 1)) :=
  pad_apply_of_inside _ _ _ wcol v pads_S4000000x1_S4001792x1_017920_000 h_S_ (ix2 (Fin.castLE le_pad e) (0 : Fin 1)) (ix2 e (0 : Fin 1)) (fun b => match b with
    | ⟨0, _⟩ => by show e.val = 0 + e.val * (0 + 1); omega
    | ⟨1, _⟩ => by show 0 = 0 + 0 * (0 + 1); omega)

/-- The padded weight column is the padding value from entry 4000000 on. -/
theorem padW_outside (wcol : FVec Ideal S4000000x1 .f32) (v : FVec Ideal S_ .f32) (e : Fin 4001792) (he : 4000000 ≤ e.val) :
    pad S4001792x1 ![0, 0] ![1792, 0] ![0, 0] wcol v pads_S4000000x1_S4001792x1_017920_000 h_S_ (ix2 e (0 : Fin 1)) = v (Shape.Idx.first h_S_) :=
  pad_apply_of_not_inside _ _ _ wcol v pads_S4000000x1_S4001792x1_017920_000 h_S_ (ix2 e (0 : Fin 1)) (0 : Fin 2) (by
    show ¬(0 ≤ e.val ∧ (e.val - 0) % (0 + 1) = 0 ∧ (e.val - 0) / (0 + 1) < 4000000)
    omega)

/-! ## The index columns on the first 4000000 edges -/

/-- Wrapping a negative entry by 300000, at one entry. -/
def wrap1 (v : BitVec 32) : BitVec 32 := Scalar.select (IntOp.cmpi .slt v 0#32) (IntOp.addi v 300000#32) v

theorem wrapD_apply (a : IVec S4001792 32) (e : Fin 4001792) : wrapD a (ix2 e (0 : Fin 1)) = wrap1 (a (ix1 e)) :=
  broadcastInDim_apply _ bcast_S4001792_S4001792x1_0 _ (ix2 e (0 : Fin 1)) (ix1 e) (fun b => match b with
    | ⟨0, _⟩ => by show e.val = if (4001792 : Nat) = 1 then 0 else e.val; rw [if_neg (by decide)])

theorem refD_apply (a : IVec S4000000 32) (e : Fin 4000000) : Cert.ReferenceIdeal.Read.val_main_v29 (F := Ideal) a (ix2 e (0 : Fin 1)) = wrap1 (a (ix1 e)) :=
  broadcastInDim_apply _ Cert.ReferenceIdeal.Facts₀.bcast_S4000000_S4000000x1_0 _ (ix2 e (0 : Fin 1)) (ix1 e) (fun b => match b with
    | ⟨0, _⟩ => by show e.val = if (4000000 : Nat) = 1 then 0 else e.val; rw [if_neg (by decide)])

theorem colS_apply (a : IVec S4001792 32) (e : Fin 4001792) :
    broadcastInDim S4001792x1 ![0] bcast_S4001792_S4001792x1_0 a (ix2 e (0 : Fin 1)) = a (ix1 e) :=
  broadcastInDim_apply _ bcast_S4001792_S4001792x1_0 _ (ix2 e (0 : Fin 1)) (ix1 e) (fun b => match b with
    | ⟨0, _⟩ => by show e.val = if (4001792 : Nat) = 1 then 0 else e.val; rw [if_neg (by decide)])

theorem refS_apply (a : IVec S4000000 32) (e : Fin 4000000) : Cert.ReferenceIdeal.Read.val_main_v34 (F := Ideal) a (ix2 e (0 : Fin 1)) = a (ix1 e) :=
  broadcastInDim_apply _ Cert.ReferenceIdeal.Facts₀.bcast_S4000000_S4000000x1_0 _ (ix2 e (0 : Fin 1)) (ix1 e) (fun b => match b with
    | ⟨0, _⟩ => by show e.val = if (4000000 : Nat) = 1 then 0 else e.val; rw [if_neg (by decide)])

/-! ## Both steps as one scatter-add of weighted gathered rows -/

theorem stepK_eq_prop (a2' a3' : IVec S4001792 32) (w' : FVec Ideal S4001792x1 .f32) (h : FVec Ideal S300000x64 .f32) :
    stepK a2' a3' w' h = propStep (rowGatherDims 300000 4001792 64 gather_S300000x64_S4001792x1_S4001792x64_1_0_n_n_0_1_164_wf)
      (rowScatterDims 300000 4001792 64 scatter_S300000x64_S4001792x1_S4001792x64_1_0_0_1_wf)
      (Cert.ReferenceIdeal.Read.val_main_v33 (F := Ideal)) (wrapD a3') (broadcastInDim S4001792x1 ![0] bcast_S4001792_S4001792x1_0 a2') w' h := by
  unfold stepK scatterK gatherK mulRows propStep
  show Ideal.hostScatterAdd _ _ _ _ = Ideal.hostScatterAdd _ _ _ _
  exact congrArg (Ideal.hostScatterAdd _ _ _) (funext fun j => mul_comm _ _)

theorem stepR_eq_prop (a2 a3 : IVec S4000000 32) (wcol : FVec Ideal S4000000x1 .f32) (h : FVec Ideal S300000x64 .f32) :
    stepR a2 a3 wcol h = propStep (rowGatherDims 300000 4000000 64 Cert.ReferenceIdeal.Facts₀.gather_S300000x64_S4000000x1_S4000000x64_1_0_n_n_0_1_164_wf)
      (rowScatterDims 300000 4000000 64 Cert.ReferenceIdeal.Facts₀.scatter_S300000x64_S4000000x1_S4000000x64_1_0_0_1_wf)
      (Cert.ReferenceIdeal.Read.val_main_v33 (F := Ideal)) (Cert.ReferenceIdeal.Read.val_main_v29 (F := Ideal) a3) (Cert.ReferenceIdeal.Read.val_main_v34 (F := Ideal) a2) wcol h := by
  unfold stepR propStep
  show Ideal.hostScatterAdd _ _ _ _ = Ideal.hostScatterAdd _ _ _ _
  refine congrArg (Ideal.hostScatterAdd _ _ _) (funext fun j => ?_)
  show broadcastInDim Cert.ReferenceIdeal.S4000000x64 ![0, 1] Cert.ReferenceIdeal.Facts₀.bcast_S4000000x1_S4000000x64_0_1 wcol j * _ = wcol (ix2 (j 0) 0) * _
  rw [broadcastInDim_apply _ Cert.ReferenceIdeal.Facts₀.bcast_S4000000x1_S4000000x64_0_1 wcol j (ix2 (j 0) 0) (fun b => match b with
    | ⟨0, _⟩ => by show (j 0).val = if (4000000 : Nat) = 1 then 0 else (j 0).val; rw [if_neg (by decide)]
    | ⟨1, _⟩ => by show 0 = if (1 : Nat) = 1 then 0 else (j 1).val; rw [if_pos rfl])]
  rfl

/-- THE STEP OVER THE PADDED EDGE LIST IS THE REFERENCE'S STEP. -/
theorem step_eq (a2 a3 : IVec S4000000 32) (wcol : FVec Ideal S4000000x1 .f32) (h : FVec Ideal S300000x64 .f32) :
    stepK (pad S4001792 ![0] ![1792] ![0] a2 (id (constantI S_ 32 0#32)) pads_S4000000_S4001792_017920 h_S_)
        (pad S4001792 ![0] ![1792] ![0] a3 (id (constantI S_ 32 0#32)) pads_S4000000_S4001792_017920 h_S_)
        (pad S4001792x1 ![0, 0] ![1792, 0] ![0, 0] wcol (id (constant (F := Ideal) S_ .f32 0x00000000#32)) pads_S4000000x1_S4001792x1_017920_000 h_S_) h
      = stepR a2 a3 wcol h := by
  rw [stepK_eq_prop, stepR_eq_prop]
  refine propStep_pad (N := 300000) (E := 4000000) (E' := 4001792) (D := 64) le_pad _ _ _ _ _ h _ _ _ _ wcol _ ?_ ?_ ?_ ?_
  · intro e
    rw [wrapD_apply, refD_apply, padI_inside]
  · intro e
    rw [colS_apply, refS_apply, padI_inside]
  · intro e
    exact padW_inside wcol _ e
  · intro e he
    rw [padW_outside wcol _ e he]
    show Ideal.ofBits .f32 0x00000000#32 = 0
    exact Ideal.ofBits_zero_f32

end Cert.KernelIdeal.Walk

end
-- ==== Proof.RefValue.lean ====
/-
  The reference's last node table in closed form, and the one arithmetic law that joins the two programs. The
  reference's three propagation steps are one function `stepR` of the node table applied three times (its three
  copies of the wrapped target indices, of the source indices and of the broadcast weights are the same terms), and
  its result before the row slices is the sum `x + A x + A (A x) + A (A (A x))` divided by the word 0x40800000, the
  real 4. The kernel multiplies the same sum by the word 0x3E800000, the real 1/4: on the extended reals a quotient
  by a nonzero real is the product with its inverse, at every extended real.
-/
import proofs.«113974_j89670327206250_2_alg».proof.Proof.StepBridge

set_option maxRecDepth 16384

noncomputable section

namespace Cert.KernelIdeal.Walk

open Cert.KernelIdeal Idealize.ShloMosaic Idealize.ShloMosaic.ValueIdx

/-! ## The two words -/

theorem ofBits_four : Ideal.ofBits .f32 0x40800000#32 = ((4 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

/-- The product with the word for 1/4 is the quotient by the word for 4, at every extended real. -/
theorem quarter_eq_div (x : EReal) : x * Ideal.ofBits .f32 0x3E800000#32 = Ideal.div x (Ideal.ofBits .f32 0x40800000#32) := by
  rw [ofBits_four, ofBits_quarter, Ideal.div_coe (by norm_num : (4 : ℝ) ≠ 0)]

/-! ## The reference's steps and sum -/

variable (a0 : FVec Ideal S200000x64 .f32) (a1 : FVec Ideal S100000x64 .f32) (a2 a3 : IVec S4000000 32)

theorem ref_step1 : Cert.ReferenceIdeal.Read.val_main_v35 (F := Ideal) a0 a1 a2 a3
    = stepR a2 a3 (Cert.ReferenceIdeal.Read.val_main_v23 (F := Ideal) a2 a3) (Cert.ReferenceIdeal.Read.val_main_v0 (F := Ideal) a0 a1) := rfl

theorem ref_step2 : Cert.ReferenceIdeal.Read.val_main_v48 (F := Ideal) a0 a1 a2 a3
    = stepR a2 a3 (Cert.ReferenceIdeal.Read.val_main_v23 (F := Ideal) a2 a3) (Cert.ReferenceIdeal.Read.val_main_v35 (F := Ideal) a0 a1 a2 a3) := rfl

theorem ref_step3 : Cert.ReferenceIdeal.Read.val_main_v61 (F := Ideal) a0 a1 a2 a3
    = stepR a2 a3 (Cert.ReferenceIdeal.Read.val_main_v23 (F := Ideal) a2 a3) (Cert.ReferenceIdeal.Read.val_main_v48 (F := Ideal) a0 a1 a2 a3) := rfl

theorem ref_sum : Cert.ReferenceIdeal.Read.val_main_v62 (F := Ideal) a0 a1 a2 a3
    = addRows (addRows (addRows (Cert.ReferenceIdeal.Read.val_main_v0 (F := Ideal) a0 a1) (Cert.ReferenceIdeal.Read.val_main_v35 (F := Ideal) a0 a1 a2 a3))
        (Cert.ReferenceIdeal.Read.val_main_v48 (F := Ideal) a0 a1 a2 a3)) (Cert.ReferenceIdeal.Read.val_main_v61 (F := Ideal) a0 a1 a2 a3) := rfl

/-- The reference's quotient by 4 of its sum is the kernel's scaling of it. -/
theorem ref_div : Cert.ReferenceIdeal.Read.val_main_v64 (F := Ideal) a0 a1 a2 a3 = scaleQ (Cert.ReferenceIdeal.Read.val_main_v62 (F := Ideal) a0 a1 a2 a3) := by
  funext i
  show Ideal.div (Cert.ReferenceIdeal.Read.val_main_v62 (F := Ideal) a0 a1 a2 a3 i) (Ideal.ofBits .f32 0x40800000#32)
    = Cert.ReferenceIdeal.Read.val_main_v62 (F := Ideal) a0 a1 a2 a3 i * Ideal.ofBits .f32 0x3E800000#32
  exact (quarter_eq_div _).symm

/-- THE TWO LAST NODE TABLES ARE ONE: the kernel's `outK` over the padded columns is the reference's `%64`. -/
theorem table_eq : outK (pad S4001792 ![0] ![1792] ![0] a2 (id (constantI S_ 32 0#32)) Facts₀.pads_S4000000_S4001792_017920 Facts₀.h_S_)
      (pad S4001792 ![0] ![1792] ![0] a3 (id (constantI S_ 32 0#32)) Facts₀.pads_S4000000_S4001792_017920 Facts₀.h_S_)
      (pad S4001792x1 ![0, 0] ![1792, 0] ![0, 0] (Cert.ReferenceIdeal.Read.val_main_v23 (F := Ideal) a2 a3) (id (constant (F := Ideal) S_ .f32 0x00000000#32)) Facts₀.pads_S4000000x1_S4001792x1_017920_000 Facts₀.h_S_)
      (Cert.ReferenceIdeal.Read.val_main_v0 (F := Ideal) a0 a1)
    = Cert.ReferenceIdeal.Read.val_main_v64 (F := Ideal) a0 a1 a2 a3 := by
  unfold outK
  rw [step_eq, step_eq, step_eq, ref_div, ref_sum, ref_step3, ref_step2, ref_step1]

end Cert.KernelIdeal.Walk

end
-- ==== Proof.KernelFinal.lean ====
/-
  The idealized kernel's two results are the reference's two terms of the launch arguments. The last node table is
  `outK` of the padded columns and `x` (the walk), those are the pads of the argument columns and of the reference's
  own weight column, and `x` is the reference's node table (the first stretch); so the table is the reference's
  `%64`, and the two results are its two row slices.
-/
import proofs.«113974_j89670327206250_2_alg».proof.Proof.KernelRun
import proofs.«113974_j89670327206250_2_alg».proof.Proof.KernelValue
import proofs.«113974_j89670327206250_2_alg».proof.Proof.KernelStart
import proofs.«113974_j89670327206250_2_alg».proof.Proof.RefValue

set_option maxRecDepth 16384

noncomputable section

namespace Cert.KernelIdeal.Walk

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ) (ρ : Dev nD → PrngReg) (c : Dev nD)

/-- The last node table is the reference's quotient `%64` of the launch arguments. -/
theorem kernel_table : W19 m ρ c (Proc.devRef .tc main_v63) = Cert.ReferenceIdeal.Read.val_main_v64 (F := Ideal) (m ((c : Thread nD τ).loc main_arg0)) (m ((c : Thread nD τ).loc main_arg1)) (m ((c : Thread nD τ).loc main_arg2)) (m ((c : Thread nD τ).loc main_arg3)) := by
  rw [last_table, read_v25_W4, read_v24_W2, read_v26_W6, keep_arg2_W3, keep_arg2_W2, arg2_W1, arg3_W1, read_c_5_W1, read_c_6_W3,
    read_cst_7_W5, keep_v23_W5, keep_v23_W4, keep_v23_W3, keep_v23_W2, v23_W1, v0_W1]
  exact table_eq _ _ _ _

theorem kernel_res0 : W20 m ρ c (Proc.devRef .tc main_v64) = Cert.ReferenceIdeal.Read.val_main_v65 (F := Ideal) (m ((c : Thread nD τ).loc main_arg0)) (m ((c : Thread nD τ).loc main_arg1)) (m ((c : Thread nD τ).loc main_arg2)) (m ((c : Thread nD τ).loc main_arg3)) := by
  rw [read_v64_W20, kernel_table]; rfl

theorem kernel_res1 : W20 m ρ c (Proc.devRef .tc main_v65) = Cert.ReferenceIdeal.Read.val_main_v66 (F := Ideal) (m ((c : Thread nD τ).loc main_arg0)) (m ((c : Thread nD τ).loc main_arg1)) (m ((c : Thread nD τ).loc main_arg2)) (m ((c : Thread nD τ).loc main_arg3)) := by
  rw [read_v65_W20, kernel_table]; rfl

/-- The idealized kernel's run, its results at the reference's terms of the launch arguments. -/
theorem run_final : θ_run defs (onTc (τ := τ) (main (F := Ideal))) ⟨m, fun _ => 0, ρ⟩ (fun r => ∀ c : Dev nD,
      r.2.mem ((c.tc : Thread nD τ).loc main_v64) = Cert.ReferenceIdeal.Read.val_main_v65 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v65) = Cert.ReferenceIdeal.Read.val_main_v66 (F := Ideal) (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c => ⟨(h c).1.trans (kernel_res0 m ρ c), (h c).2.1.trans (kernel_res1 m ρ c), (h c).2.2⟩)
    (Cert.KernelIdeal.RunValue.run_named (F := Ideal) m ρ)

end Cert.KernelIdeal.Walk

end
-- ==== Proof.lean ====
/-
  The certificate of a three-layer graph propagation, `out = (x + A x + A² x + A³ x) / 4` over 300000 nodes and
  4000000 weighted edges, split into its first 200000 and last 100000 rows.

  The kernel program keeps the irregular parts on the host — the degree count, the per-edge weights, each layer's
  row gather at the target indices and scatter-add at the source indices — and runs seven regions: per layer the
  weighting of the gathered rows (row `e` times weight `w e`) and the accumulation into the running sum, then the
  scaling by 1/4. It pads the edge list to 4001792 edges with target 0, source 0 and WEIGHT 0.

  Frames: the two kernel programs' are their generated frame certificates; the reference's is its generated run with
  the results dropped. The idealization rewrote nothing, so `preserves` is trivial. Algebraic: the idealized kernel's
  run names its two results (the launch over @main's twenty segments, read off the last boundary); walking the
  boundaries gives its last node table as the quarter of `x + A' x + A' (A' x) + A' (A' (A' x))`, `A'` the step over
  the padded edge list; a padded edge's row is 0 times an extended real, so `A' = A` with no finiteness assumed, and
  the product with the word for 1/4 is the reference's quotient by the word for 4. Both results are then the
  reference's own terms of arguments that agree.
-/
import proofs.«113974_j89670327206250_2_alg».proof.Defs
import proofs.«113974_j89670327206250_2_alg».proof.Proof.Gen.Kernel
import proofs.«113974_j89670327206250_2_alg».proof.Proof.Gen.Kernel.Skeleton
import proofs.«113974_j89670327206250_2_alg».proof.Proof.Gen.Kernel.Launch
import proofs.«113974_j89670327206250_2_alg».proof.Proof.Gen.Kernel.Points
import proofs.«113974_j89670327206250_2_alg».proof.Proof.Gen.Kernel.Frame
import proofs.«113974_j89670327206250_2_alg».proof.Proof.Gen.KernelIdeal
import proofs.«113974_j89670327206250_2_alg».proof.Proof.Gen.KernelIdeal.Skeleton
import proofs.«113974_j89670327206250_2_alg».proof.Proof.Gen.KernelIdeal.Launch
import proofs.«113974_j89670327206250_2_alg».proof.Proof.Gen.KernelIdeal.Points
import proofs.«113974_j89670327206250_2_alg».proof.Proof.Gen.KernelIdeal.Frame
import proofs.«113974_j89670327206250_2_alg».proof.Proof.Gen.ReferenceIdeal
import proofs.«113974_j89670327206250_2_alg».proof.Proof.Gen.Pre_finite_inputs
import proofs.«113974_j89670327206250_2_alg».proof.Proof.Gen.ReferenceIdeal.Run
import proofs.«113974_j89670327206250_2_alg».proof.Proof.Gen.ReferenceIdeal.Read
import proofs.«113974_j89670327206250_2_alg».proof.Proof.KernelFinal
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference's run ends with its arguments unchanged. -/
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both runs end with each result at the reference's term of arguments that agree. -/
theorem algebraic : Cert.algebraic_KernelIdeal_ReferenceIdeal := by
  intro m ρ m' ρ' _ hagree
  refine ⟨_, _, Cert.KernelIdeal.Walk.run_final m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v65_eq, (hagree c).1, (hagree c).2.1, (hagree c).2.2.1, (hagree c).2.2.2]
  · rw [Cert.ReferenceIdeal.Read.val_main_v66_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
